-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S1x256 : Shape := ⟨2, ![1, 256]⟩
abbrev S5000x128 : Shape := ⟨2, ![5000, 128]⟩
abbrev S2x128 : Shape := ⟨2, ![2, 128]⟩

abbrev nBuf : Space → Nat
  | .hbm => 58
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x256, .f32⟩
  | .hbm, ⟨30, _⟩ => ⟨S1x256, .f32⟩
  | .hbm, ⟨31, _⟩ => ⟨S2x128, .f32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S2x128, .f32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  shapeCasts_S1x256_S2x128 : S1x256.ShapeCasts S2x128
  reducesTo_S2x128_S128_d0 : S2x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x256.size a
  hwx0_6 : ∀ i : grid0.Coords, EltTy.bits .f32 = 32 ∨ (Rect.block (s := S1x256) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x256.size a
  hwx0_7 : ∀ i : grid0.Coords, EltTy.bits .f32 = 32 ∨ (Rect.block (s := S1x256) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with every buffer named.

  @main is four segments: the host operations before the first launch, the statistics launch (grid 2 × 5), the host
  operations between the launches, and the normalising launch (grid 10). The launch side of the frame proof threads the
  contents of every unscoped buffer through those segments as a fold from the launch memory; its last stage `W4` is what
  the buffers hold when @main returns. The frame claim reads only the argument arrays off that last stage. Here the same
  run is stated with the whole last stage in its post, so that the value proof can read the RESULT array off it.
-/
import proofs.«139955_j87703232184760_2_alg».proof.Proof.Gen.KernelIdeal.Frame

set_option maxRecDepth 16384

noncomputable section

namespace Cert.GinNorm.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every core then holds
    what the fold through the four segments says: the contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.GinNorm.Kernel

end
-- ==== Proof.HostTerms.lean ====
/-
  The host operations between the two launches, as functions of what the statistics launch left.

  From the two 1 × 256 rows of per-core sums the host forms, per column: the total (the two cores' lanes added), the mean
  (total / 50000), the variance floor `max(E[y²] − mean², 0)`, the scale `γ · rsqrt(var + ε)` and the shift `β − mean · scale`.
  Each is one 1 × 128 row.
-/
import proofs.«139955_j87703232184760_2_alg».proof.Proof.Gen.KernelIdeal
import Idealize.ShloMosaic.PureOps.Ideal

noncomputable section

namespace Cert.GinNorm.Kernel

open Cert.KernelIdeal Cert.KernelIdeal.Gen Idealize.ShloMosaic

/-- A row of per-core sums divided by the row count: the two cores' lanes added (from the literal zero), over `50000`. -/
def meanRow (s : FVec Ideal S1x256 .f32) : FVec Ideal S1x128 .f32 :=
  Host.divf (F := Ideal)
    (broadcastInDim S1x128 ![1] bcast_S128_S1x128_1
      (Host.reduceAdd (F := Ideal) (shapeCast S2x128 s shapeCasts_S1x256_S2x128) (constant (F := Ideal) S_ .f32 0x00000000#32)
        reducesTo_S2x128_S128_d0 h_S_))
    (broadcastInDim S1x128 ![] bcast_S_S1x128 (constant (F := Ideal) S_ .f32 0x47435000#32))

/-- The scale row: `γ · rsqrt(max(E[y²] − mean², 0) + ε)`, from the rows of sums `s1`, of sums of squares `s2`, and `γ`. -/
def scaleRow (s1 s2 : FVec Ideal S1x256 .f32) (g : FVec Ideal S1x128 .f32) : FVec Ideal S1x128 .f32 :=
  mulf g (Host.rsqrt (F := Ideal)
    (addf (maximumf (subf (meanRow s2) (mulf (meanRow s1) (meanRow s1)))
        (broadcastInDim S1x128 ![] bcast_S_S1x128 (constant (F := Ideal) S_ .f32 0x00000000#32)))
      (broadcastInDim S1x128 ![] bcast_S_S1x128 (constant (F := Ideal) S_ .f32 0x3727C5AC#32))))

/-- The shift row: `β − mean · scale`. -/
def shiftRow (s1 s2 : FVec Ideal S1x256 .f32) (g b : FVec Ideal S1x128 .f32) : FVec Ideal S1x128 .f32 :=
  subf b (mulf (meanRow s1) (scaleRow s1 s2 g))

/-- A 128-vector laid out as a 1 × 128 row. -/
def asRow (v : FVec Ideal S128 .f32) : FVec Ideal S1x128 .f32 := shapeCast S1x128 v shapeCasts_S128_S1x128

end Cert.GinNorm.Kernel

end
-- ==== Proof.Stages.lean ====
/-
  What each launch is entered with, as functions of the argument arrays.

  The frame proof threads every buffer's contents through @main's four segments. Read at the arrays the two launches
  take, that fold gives: before the statistics launch, the features, the weight matrices and the bias vectors (as rows)
  unchanged and the neighbours' sums as the gather-and-scatter-add of the features along the edge list — the very term
  the reference computes; before the normalising launch, those same arrays (the statistics launch writes none of them),
  and the scale and shift rows as the host operations' functions of the two rows of sums the statistics launch left.
-/
import proofs.«139955_j87703232184760_2_alg».proof.Proof.Gen.KernelIdeal.Frame
import proofs.«139955_j87703232184760_2_alg».proof.Proof.Gen.ReferenceIdeal.Read
import proofs.«139955_j87703232184760_2_alg».proof.Proof.HostTerms
import Idealize.ShloMosaic.Lib.StableHlo.Run

set_option maxRecDepth 16384

noncomputable section

namespace Cert.GinNorm.Kernel

open Cert.KernelIdeal Cert.KernelIdeal.Gen Idealize.ShloMosaic Idealize.ShloMosaic.TcCoe
open Idealize.SL Idealize.SL.Sem Idealize.ShloMosaic.StableHlo

variable (m : (ℓ : Loc nD τ sig) → Buf (Elt Ideal) ℓ) (ρ : Dev nD → PrngReg)

/-! ## Before the statistics launch -/

theorem entry0_arg0 (c : Dev nD) : V1 m ρ c main_arg0 = m ((c : Thread nD τ).loc main_arg0) := by
  show StableHlo.after hostOps0 (W0 m ρ c) (Proc.devRef .tc main_arg0) = _
  after_results_simp <;> rfl

theorem entry0_arg2 (c : Dev nD) : V1 m ρ c main_arg2 = m ((c : Thread nD τ).loc main_arg2) := by
  show StableHlo.after hostOps0 (W0 m ρ c) (Proc.devRef .tc main_arg2) = _
  after_results_simp <;> rfl

theorem entry0_arg4 (c : Dev nD) : V1 m ρ c main_arg4 = m ((c : Thread nD τ).loc main_arg4) := by
  show StableHlo.after hostOps0 (W0 m ρ c) (Proc.devRef .tc main_arg4) = _
  after_results_simp <;> rfl

/-- The neighbours' sums the kernel's host side computes are the reference's: the same gather of feature rows at the
    edges' sources (negative indices wrapped by 50000) scatter-added at the edges' targets into zeros. -/
theorem entry0_agg (c : Dev nD) :
    V1 m ρ c main_v13 = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results_simp <;> rfl

theorem entry0_b1 (c : Dev nD) : V1 m ρ c main_v14 = asRow (m ((c : Thread nD τ).loc main_arg3)) := by
  show StableHlo.after hostOps0 (W0 m ρ c) (Proc.devRef .tc main_v14) = _
  after_results_simp <;> rfl

theorem entry0_b2 (c : Dev nD) : V1 m ρ c main_v15 = asRow (m ((c : Thread nD τ).loc main_arg5)) := by
  show StableHlo.after hostOps0 (W0 m ρ c) (Proc.devRef .tc main_v15) = _
  after_results_simp <;> rfl

theorem entry0_gamma (c : Dev nD) : V1 m ρ c main_v16 = asRow (m ((c : Thread nD τ).loc main_arg6)) := by
  show StableHlo.after hostOps0 (W0 m ρ c) (Proc.devRef .tc main_v16) = _
  after_results_simp <;> rfl

theorem entry0_beta (c : Dev nD) : V1 m ρ c main_v17 = asRow (m ((c : Thread nD τ).loc main_arg7)) := by
  show StableHlo.after hostOps0 (W0 m ρ c) (Proc.devRef .tc main_v17) = _
  after_results_simp <;> rfl

/-! ## After the statistics launch: its operands as entered, its two results as the pipeline leaves them -/

theorem exit0_arg0 (c : Dev nD) : W2 m ρ c (Proc.devRef .tc main_arg0) = V1 m ρ c main_arg0 :=
  (W2_arr m ρ c 0).trans (((dat0 (V1 m ρ) c).arrAt_in 0 rfl _).trans (A_eq0 (V1 m ρ) c 0))

theorem exit0_agg (c : Dev nD) : W2 m ρ c (Proc.devRef .tc main_v13) = V1 m ρ c main_v13 :=
  (W2_arr m ρ c 1).trans (((dat0 (V1 m ρ) c).arrAt_in 1 rfl _).trans (A_eq0 (V1 m ρ) c 1))

theorem exit0_arg2 (c : Dev nD) : W2 m ρ c (Proc.devRef .tc main_arg2) = V1 m ρ c main_arg2 :=
  (W2_arr m ρ c 2).trans (((dat0 (V1 m ρ) c).arrAt_in 2 rfl _).trans (A_eq0 (V1 m ρ) c 2))

theorem exit0_b1 (c : Dev nD) : W2 m ρ c (Proc.devRef .tc main_v14) = V1 m ρ c main_v14 :=
  (W2_arr m ρ c 3).trans (((dat0 (V1 m ρ) c).arrAt_in 3 rfl _).trans (A_eq0 (V1 m ρ) c 3))

theorem exit0_arg4 (c : Dev nD) : W2 m ρ c (Proc.devRef .tc main_arg4) = V1 m ρ c main_arg4 :=
  (W2_arr m ρ c 4).trans (((dat0 (V1 m ρ) c).arrAt_in 4 rfl _).trans (A_eq0 (V1 m ρ) c 4))

theorem exit0_b2 (c : Dev nD) : W2 m ρ c (Proc.devRef .tc main_v15) = V1 m ρ c main_v15 :=
  (W2_arr m ρ c 5).trans (((dat0 (V1 m ρ) c).arrAt_in 5 rfl _).trans (A_eq0 (V1 m ρ) c 5))

theorem exit0_sum (c : Dev nD) : W2 m ρ c (Proc.devRef .tc main_v18_0) = (dat0 (V1 m ρ) c).arrAt 6 cfg0.N := W2_arr m ρ c 6

theorem exit0_sumsq (c : Dev nD) : W2 m ρ c (Proc.devRef .tc main_v18_1) = (dat0 (V1 m ρ) c).arrAt 7 cfg0.N := W2_arr m ρ c 7

theorem exit0_gamma (c : Dev nD) : W2 m ρ c (Proc.devRef .tc main_v16) = V1 m ρ c main_v16 := W2_of_ne m ρ c main_v16 (by decide)

theorem exit0_beta (c : Dev nD) : W2 m ρ c (Proc.devRef .tc main_v17) = V1 m ρ c main_v17 := W2_of_ne m ρ c main_v17 (by decide)

/-! ## Before the normalising launch -/

theorem entry1_arg0 (c : Dev nD) : V3 m ρ c main_arg0 = m ((c : Thread nD τ).loc main_arg0) := by
  show StableHlo.after hostOps1 (W2 m ρ c) (Proc.devRef .tc main_arg0) = _
  after_results_simp
  exact (exit0_arg0 m ρ c).trans (entry0_arg0 m ρ c)

theorem entry1_agg (c : Dev nD) : V3 m ρ c main_v13 = Cert.ReferenceIdeal.Read.val_main_v13 (F := Ideal) (m ((c : Thread nD τ).loc main_arg0)) (m ((c : Thread nD τ).loc main_arg1)) := by
  show StableHlo.after hostOps1 (W2 m ρ c) (Proc.devRef .tc main_v13) = _
  after_results_simp
  exact (exit0_agg m ρ c).trans (entry0_agg m ρ c)

theorem entry1_arg2 (c : Dev nD) : V3 m ρ c main_arg2 = m ((c : Thread nD τ).loc main_arg2) := by
  show StableHlo.after hostOps1 (W2 m ρ c) (Proc.devRef .tc main_arg2) = _
  after_results_simp
  exact (exit0_arg2 m ρ c).trans (entry0_arg2 m ρ c)

theorem entry1_b1 (c : Dev nD) : V3 m ρ c main_v14 = asRow (m ((c : Thread nD τ).loc main_arg3)) := by
  show StableHlo.after hostOps1 (W2 m ρ c) (Proc.devRef .tc main_v14) = _
  after_results_simp
  exact (exit0_b1 m ρ c).trans (entry0_b1 m ρ c)

theorem entry1_arg4 (c : Dev nD) : V3 m ρ c main_arg4 = m ((c : Thread nD τ).loc main_arg4) := by
  show StableHlo.after hostOps1 (W2 m ρ c) (Proc.devRef .tc main_arg4) = _
  after_results_simp
  exact (exit0_arg4 m ρ c).trans (entry0_arg4 m ρ c)

theorem entry1_b2 (c : Dev nD) : V3 m ρ c main_v15 = asRow (m ((c : Thread nD τ).loc main_arg5)) := by
  show StableHlo.after hostOps1 (W2 m ρ c) (Proc.devRef .tc main_v15) = _
  after_results_simp
  exact (exit0_b2 m ρ c).trans (entry0_b2 m ρ c)

/-- The scale row the normalising launch reads: the host operations' function of the two rows of sums and of `γ`. -/
theorem entry1_scale (c : Dev nD) :
    V3 m ρ c main_v36 = scaleRow (W2 m ρ c (Proc.devRef .tc main_v18_0)) (W2 m ρ c (Proc.devRef .tc main_v18_1))
      (W2 m ρ c (Proc.devRef .tc main_v16)) := by
  show StableHlo.after hostOps1 (W2 m ρ c) (Proc.devRef .tc main_v36) = _
  after_results_simp <;> rfl

/-- The shift row likewise, of the sums, `γ` and `β`. -/
theorem entry1_shift (c : Dev nD) :
    V3 m ρ c main_v38 = shiftRow (W2 m ρ c (Proc.devRef .tc main_v18_0)) (W2 m ρ c (Proc.devRef .tc main_v18_1))
      (W2 m ρ c (Proc.devRef .tc main_v16)) (W2 m ρ c (Proc.devRef .tc main_v17)) := by
  show StableHlo.after hostOps1 (W2 m ρ c) (Proc.devRef .tc main_v38) = _
  after_results_simp <;> rfl

end Cert.GinNorm.Kernel

end
-- ==== Proof.Spec.lean ====
/-
  The mathematics both programs compute, stated once over the extended reals, with no program in sight.

  A node's input row is its own feature row plus the sum of its neighbours' rows; the row goes through two dense
  layers, each followed by a rectifier (`mlpRow`). The 50000 resulting rows are then normalised column by column
  with the batch's own statistics. The two programs arrange that normalisation differently:

  * the reference centres first: with `μ = (Σ y) / n`, it forms `(y − μ) · rsqrt((Σ (y − μ)²) / n + ε) · γ + β` (`normCentred`);
  * the kernel accumulates `Σ y` and `Σ y²` block by block (ten blocks of 5000 rows, five per core, each core starting
    from zero: `accum`), adds the two cores' partial sums, takes `var = max((Σ y²)/n − μ², 0)`, and applies
    `y · (γ · rsqrt(var + ε)) + (β − μ · (γ · rsqrt(var + ε)))` (`normMoments`).

  Float literals stay as the bit patterns the programs spell; Proof/Consts.lean evaluates the ones whose value matters.
-/
import Idealize.ShloMosaic.PureOps.Ideal
import Idealize.ShloMosaic.Lib.ValueIdx

noncomputable section

namespace Cert.GinNorm

open Idealize.ShloMosaic Idealize.ShloMosaic.ValueIdx

/-- The literal `0.0`. -/
abbrev zero : EReal := Ideal.ofBits .f32 0x00000000#32
/-- The literal `1.0` (the factor `1 + eps` of the self term, with `eps = 0`). -/
abbrev one : EReal := Ideal.ofBits .f32 0x3F800000#32
/-- The literal `50000.0`, the number of rows. -/
abbrev cnt : EReal := Ideal.ofBits .f32 0x47435000#32
/-- The literal `1e-5` (as f32), the variance's offset. -/
abbrev eps : EReal := Ideal.ofBits .f32 0x3727C5AC#32

/-- One dense layer followed by the rectifier, on one row: `max(Σₖ h k · w k j + b j, 0)`. -/
def layer (w : Fin 128 → Fin 128 → EReal) (b : Fin 128 → EReal) (h : Fin 128 → EReal) (j : Fin 128) : EReal :=
  max ((∑ k : Fin 128, h k * w k j) + b j) zero

/-- A node's row through the network: the self term `1 · x` plus the neighbours' sum `a`, then the two layers. -/
def mlpRow (w1 : Fin 128 → Fin 128 → EReal) (b1 : Fin 128 → EReal) (w2 : Fin 128 → Fin 128 → EReal) (b2 : Fin 128 → EReal)
    (x a : Fin 128 → EReal) : Fin 128 → EReal :=
  layer w2 b2 (layer w1 b1 (fun k => one * x k + a k))

/-- The sum of a column over block `t` of 5000 rows (zero past the tenth block). -/
def blockSum (f : Fin 50000 → EReal) (t : ℕ) : EReal :=
  if h : t < 10 then ∑ p : Fin 5000, f ⟨5000 * t + p.val, by have := p.isLt; omega⟩ else 0

/-- A core's running sum after grid point `t`: restarted from the literal zero at the first of its five points. -/
def accum (B : ℕ → EReal) : ℕ → EReal
  | 0 => zero + B 0
  | n + 1 => if (n + 1) % 5 = 0 then zero + B (n + 1) else accum B n + B (n + 1)

/-- A column's total as the kernel forms it: zero plus the two cores' final running sums. -/
def total (f : Fin 50000 → EReal) : EReal :=
  zero + ∑ k : Fin 2, accum (blockSum f) (5 * k.val + 4)

/-- The mean the kernel uses. -/
def meanK (f : Fin 50000 → EReal) : EReal := Ideal.div (total f) cnt

/-- The kernel's scale `γ · rsqrt(max(E[y²] − μ², 0) + ε)`. -/
def scaleK (f : Fin 50000 → EReal) (g : EReal) : EReal :=
  g * Ideal.rsqrt (max (Ideal.div (total fun r => f r * f r) cnt - meanK f * meanK f) zero + eps)

/-- The kernel's normalisation of entry `r` of a column: `y · scale + (β − μ · scale)`. -/
def normMoments (f : Fin 50000 → EReal) (g b : EReal) (r : Fin 50000) : EReal :=
  f r * scaleK f g + (b - meanK f * scaleK f g)

/-- The mean the reference uses. -/
def meanR (f : Fin 50000 → EReal) : EReal := Ideal.div (zero + ∑ r : Fin 50000, f r) cnt

/-- The reference's normalisation: `(y − μ) · rsqrt(mean of (y − μ)² + ε) · γ + β`. -/
def normCentred (f : Fin 50000 → EReal) (g b : EReal) (r : Fin 50000) : EReal :=
  (f r - meanR f) * Ideal.rsqrt (Ideal.div (zero + ∑ r' : Fin 50000, (f r' - meanR f) * (f r' - meanR f)) cnt + eps) * g + b

/-- The network's output at node `r`, column `c`, from the argument arrays (the neighbours' sums `A` an array of its own). -/
def act (X A : (⟨2, ![50000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (r : Fin 50000) (c : Fin 128) : EReal :=
  mlpRow (fun k j => W1 (ix2 k j)) (fun j => b1 (ix1 j)) (fun k j => W2 (ix2 k j)) (fun j => b2 (ix1 j))
    (fun k => X (ix2 r k)) (fun k => A (ix2 r k)) c

/-- THE RESULT, as the reference arranges it: entry `(r, c)` is column `c` of the activations normalised at row `r`. -/
def result (X A : (⟨2, ![50000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal) (b2 g b : (⟨1, ![128]⟩ : Shape).Idx → EReal) :
    (⟨2, ![50000, 128]⟩ : Shape).Idx → EReal :=
  fun i => normCentred (fun r => act X A W1 b1 W2 b2 r (i 1)) (g (ix1 (i 1))) (b (ix1 (i 1))) (i 0)

/-- The same entries as the kernel arranges them. -/
def resultMoments (X A : (⟨2, ![50000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal) (b2 g b : (⟨1, ![128]⟩ : Shape).Idx → EReal) :
    (⟨2, ![50000, 128]⟩ : Shape).Idx → EReal :=
  fun i => normMoments (fun r => act X A W1 b1 W2 b2 r (i 1)) (g (ix1 (i 1))) (b (ix1 (i 1))) (i 0)

end Cert.GinNorm

end
-- ==== Proof.BlockMlp.lean ====
/-
  The two dense layers on one block of rows, read at an entry.

  Both kernel bodies start with the same arithmetic on a block of 5000 node rows: the self term `1 · x` plus the
  neighbours' sum, a product with the first weight matrix plus its bias row, a rectifier, a product with the second
  weight matrix plus its bias row, a rectifier. Read at row `p`, column `q` of the block, each matrix product into the
  zero accumulator is a sum over the 128 contracted columns, the bias row is broadcast down the rows, and the result is
  the specification's `mlpRow` of row `p`.
-/
import proofs.«139955_j87703232184760_2_alg».proof.Proof.Gen.KernelIdeal.Skeleton
import proofs.«139955_j87703232184760_2_alg».proof.Proof.Spec
import Idealize.ShloMosaic.Lib.ValueIdx
import Idealize.ShloMosaic.Lib.Pipeline.Value
import Idealize.ShloMosaic.PureOps.Ideal.Laws

noncomputable section

namespace Cert.GinNorm.Kernel

open Cert.KernelIdeal Cert.KernelIdeal.Gen Idealize.ShloMosaic Idealize.ShloMosaic.ValueIdx

/-- The dimension record of the block products: rows × 128 contracted with 128 × columns. -/
abbrev blockDot : DotDims S5000x128 S128x128 S5000x128 := dot_S5000x128_S128x128_S5000x128_1_0_0_1_n_n

theorem blockDot_lhs0 (i : S5000x128.Idx) (κ : blockDot.contr.Idx) : (blockDot.lhsIdx i κ 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl

theorem blockDot_rhs1 (i : S5000x128.Idx) (κ : blockDot.contr.Idx) : (blockDot.rhsIdx i κ 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- A block's product with a 128 × 128 matrix into the zero accumulator, at row `p` and column `q`: the sum over the
    contracted index `k` of the block's entry `(p, k)` times the matrix's entry `(k, q)`. -/
theorem blockDot_apply (l : FVec Ideal S5000x128 .f32) (w : FVec Ideal S128x128 .f32) (p : Fin 5000) (q : Fin 128) :
    matmul blockDot (some .fp32) l w (constant (F := Ideal) S5000x128 .f32 0x00000000#32) (ix2 p q)
      = ∑ k : Fin 128, l (ix2 p k) * w (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact blockDot_lhs0 _ _
    | ⟨1, _⟩ => exact (blockDot.lhsIdx_val_of_single rfl _ _).trans hk)
  have er : blockDot.rhsIdx (ix2 p q) ((contrEquiv1 blockDot 128 rfl rfl).symm k) = ix2 k q := funext fun a => Fin.ext (by
    match a with
    | ⟨0, _⟩ => exact (blockDot.rhsIdx_val_of_single rfl _ _).trans hk
    | ⟨1, _⟩ => exact blockDot_rhs1 _ _)
  rw [el, er]

/-- A bias row broadcast down the block's rows, at `(p, q)`: the row's entry `q`. -/
theorem biasRow_apply (v : Vec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_apply v broadcasts_S1x128_S5000x128 (ix2 p q) (ix2 (0 : Fin 1) q) (fun a => by
    match a with
    | ⟨0, _⟩ => rfl
    | ⟨1, _⟩ => rfl)

/-- THE BLOCK'S ACTIVATIONS at row `p`, column `q`: the specification's network applied to row `p` of the block of
    features and of the block of neighbours' sums. -/
theorem blockMlp_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay4 (F := Ideal) x0 x1 x2 x3 x4 x5 (ix2 p q)
      = mlpRow (fun k j => x2 (ix2 k j)) (fun j => x3 (ix2 (0 : Fin 1) j)) (fun k j => x4 (ix2 k j)) (fun j => x5 (ix2 (0 : Fin 1) j))
          (fun k => x0 (ix2 p k)) (fun k => x1 (ix2 p k)) q := by
  unfold k0_pay4
  rw [maximumf_apply, addf_apply, blockDot_apply, biasRow_apply]
  unfold mlpRow layer
  refine congrArg₂ max (congrArg₂ (· + ·) (Finset.sum_congr rfl fun k _ => congrArg₂ (· * ·) ?_ rfl) rfl) rfl
  rw [maximumf_apply, addf_apply, blockDot_apply, biasRow_apply]
  refine congrArg₂ max (congrArg₂ (· + ·) (Finset.sum_congr rfl fun k' _ => congrArg₂ (· * ·) ?_ rfl) rfl) rfl
  rw [shapeCast_self]
  rfl

end Cert.GinNorm.Kernel

end
-- ==== Proof.ApplyValue.lean ====
/-
  What the normalising launch leaves in the result array.

  The launch walks ten blocks of 5000 node rows. At block `t` its body reads rows `5000 t … 5000 t + 4999` of the
  features and of the neighbours' sums, the two weight matrices and bias rows whole, and the scale and shift rows whole;
  it writes the block's activations times the scale row plus the shift row back to the same rows of the result. The ten
  blocks tile the 50000 rows, so the result array ends as ONE function of the arrays the launch was entered with.
-/
import proofs.«139955_j87703232184760_2_alg».proof.Proof.Gen.KernelIdeal.Frame
import proofs.«139955_j87703232184760_2_alg».proof.Proof.BlockMlp

set_option maxRecDepth 16384

noncomputable section

namespace Cert.GinNorm.Kernel

open Cert.KernelIdeal Cert.KernelIdeal.Gen Idealize.ShloMosaic Idealize.ShloMosaic.TcCoe Idealize.ShloMosaic.ValueIdx
open Idealize.SL Idealize.SL.Sem
open Idealize.ShloMosaic.Pipeline (Dat)

/-- Entry `i = (r, q)` of the normalising launch's result: node `r`'s activation in column `q`, times the scale row's entry `q`,
    plus the shift row's entry `q`. -/
def applied (X A : S50000x128.Idx → EReal) (W1 : S128x128.Idx → EReal) (b1 : S1x128.Idx → EReal) (W2 : S128x128.Idx → EReal)
    (b2 sc sh : S1x128.Idx → EReal) : S50000x128.Idx → EReal :=
  fun i => mlpRow (fun k j => W1 (ix2 k j)) (fun j => b1 (ix2 (0 : Fin 1) j)) (fun k j => W2 (ix2 k j)) (fun j => b2 (ix2 (0 : Fin 1) j))
      (fun k => X (ix2 (⟨(i 0).val, (i 0).isLt⟩ : Fin 50000) k)) (fun k => A (ix2 (⟨(i 0).val, (i 0).isLt⟩ : Fin 50000) k)) ⟨(i 1).val, (i 1).isLt⟩
    * sc (ix2 (0 : Fin 1) (⟨(i 1).val, (i 1).isLt⟩ : Fin 128)) + sh (ix2 (0 : Fin 1) (⟨(i 1).val, (i 1).isLt⟩ : Fin 128))

/-- The body's stored value at an entry of the block: the block's activation there, scaled and shifted by the rows. -/
theorem applyPayload_apply (x0 x1 : Vec Ideal S5000x128 .f32) (x2 : Vec Ideal S128x128 .f32) (x3 : Vec Ideal S1x128 .f32)
    (x4 : Vec Ideal S128x128 .f32) (x5 x6 x7 : Vec Ideal S1x128 .f32) (p : Fin 5000) (q : Fin 128) :
    k1_pay1 (F := Ideal) x0 x1 x2 x3 x4 x5 x6 x7 (ix2 p q)
      = mlpRow (fun k j => x2 (ix2 k j)) (fun j => x3 (ix2 (0 : Fin 1) j)) (fun k j => x4 (ix2 k j)) (fun j => x5 (ix2 (0 : Fin 1) j))
          (fun k => x0 (ix2 p k)) (fun k => x1 (ix2 p k)) q * x6 (ix2 (0 : Fin 1) q) + x7 (ix2 (0 : Fin 1) q) := by
  show addf (mulf (k0_pay4 (F := Ideal) x0 x1 x2 x3 x4 x5)
      (broadcastTo S5000x128 (shapeCast S1x128 x6 shapeCasts_S1x128_S1x128) broadcasts_S1x128_S5000x128))
      (broadcastTo S5000x128 (shapeCast S1x128 x7 shapeCasts_S1x128_S1x128) broadcasts_S1x128_S5000x128) (ix2 p q) = _
  rw [addf_apply, mulf_apply, blockMlp_apply, biasRow_apply, biasRow_apply]

theorem hz : (![0, 0] : Fin 2 → Nat) = fun _ => 0 := funext fun a => by fin_cases a <;> rfl

/-- The printed index maps over the grid: the row windows and the result window sit at block `t` of the rows, every other
    window at the one block of its array. -/
theorem apply_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of `applied` of the arrays the launch was entered with. -/
theorem apply_flushed (c : Dev nD) (t : Fin cfg1.N) :
    (dat1 V c).flushed 8 t = ((cfg1.win 8).blk t).view.read (Elt Ideal)
      (applied (V c main_arg0) (V c main_v13) (V c main_arg2) (V c main_v14) (V c main_arg4) (V c main_v15) (V c main_v36) (V c main_v38)) := by
  show (cfg1.win 8).cut (grid1.coords t) ((dat1 V c).after 8 t) = _
  rw [after1_8]
  unfold out1_8
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61, e70, e71, e80, e81⟩ := apply_index_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t)
      (iblk1 V c 6 t) (iblk1 V c 7 t) (ix2 p q)
    = applied (V c main_arg0) (V c main_v13) (V c main_arg2) (V c main_v14) (V c main_arg4) (V c main_v15) (V c main_v36) (V c main_v38)
        (((cfg1.win 8).blk t).view.emb (ix2 p q))
  refine (applyPayload_apply (iblk1 V c 0 t) (iblk1 V c 1 t) (iblk1 V c 2 t) (iblk1 V c 3 t) (iblk1 V c 4 t) (iblk1 V c 5 t)
    (iblk1 V c 6 t) (iblk1 V c 7 t) p q).trans ?_
  -- where the entry sits in the whole arrays: row `5000 t + p`, column `q`
  have he0 : ((((cfg1.win 8).blk t).view.emb (ix2 p q)) 0).val = t.val * 5000 + p.val := by
    show win1_8.index t (0 : Fin 2) * 5000 + 1 * p.val = _; omega
  have he1 : ((((cfg1.win 8).blk t).view.emb (ix2 p q)) 1).val = q.val := by
    show win1_8.index t (1 : Fin 2) * 128 + 1 * q.val = _; omega
  have w2 : ∀ y : S128x128.Idx, iblk1 V c 2 t y = V c main_arg2 y := fun y => by
    show V c main_arg2 (((cfg1.win 2).blk t).view.emb y) = V c main_arg2 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have w3 : ∀ y : S1x128.Idx, iblk1 V c 3 t y = V c main_v14 y := fun y => by
    show V c main_v14 (((cfg1.win 3).blk t).view.emb y) = V c main_v14 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have w4 : ∀ y : S128x128.Idx, iblk1 V c 4 t y = V c main_arg4 y := fun y => by
    show V c main_arg4 (((cfg1.win 4).blk t).view.emb y) = V c main_arg4 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have w5 : ∀ y : S1x128.Idx, iblk1 V c 5 t y = V c main_v15 y := fun y => by
    show V c main_v15 (((cfg1.win 5).blk t).view.emb y) = V c main_v15 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  have w6 : ∀ y : S1x128.Idx, iblk1 V c 6 t y = V c main_v36 y := fun y => by
    show V c main_v36 (((cfg1.win 6).blk t).view.emb y) = V c main_v36 y
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  have w7 : ∀ y : S1x128.Idx, iblk1 V c 7 t y = V c main_v38 y := fun y => by
    show V c main_v38 (((cfg1.win 7).blk t).view.emb y) = V c main_v38 y
    refine congrArg _ (funext fun a => Fin.ext ?_)
    match a with
    | ⟨0, _⟩ => show win1_7.index t (0 : Fin 2) * 1 + 1 * (y 0).val = (y 0).val; omega
    | ⟨1, _⟩ => show win1_7.index t (1 : Fin 2) * 128 + 1 * (y 1).val = (y 1).val; omega
  have r0 : ∀ k : Fin 128, iblk1 V c 0 t (ix2 p k)
      = V c main_arg0 (ix2 (⟨((((cfg1.win 8).blk t).view.emb (ix2 p q)) 0).val, ((((cfg1.win 8).blk t).view.emb (ix2 p q)) 0).isLt⟩ : Fin 50000) k) := fun k => by
    show V c main_arg0 (((cfg1.win 0).blk t).view.emb (ix2 p k)) = _
    refine congrArg _ (funext fun a => Fin.ext ?_)
    match a with
    | ⟨0, _⟩ => show win1_0.index t (0 : Fin 2) * 5000 + 1 * p.val = ((((cfg1.win 8).blk t).view.emb (ix2 p q)) 0).val; omega
    | ⟨1, _⟩ => show win1_0.index t (1 : Fin 2) * 128 + 1 * k.val = k.val; omega
  have r1 : ∀ k : Fin 128, iblk1 V c 1 t (ix2 p k)
      = V c main_v13 (ix2 (⟨((((cfg1.win 8).blk t).view.emb (ix2 p q)) 0).val, ((((cfg1.win 8).blk t).view.emb (ix2 p q)) 0).isLt⟩ : Fin 50000) k) := fun k => by
    show V c main_v13 (((cfg1.win 1).blk t).view.emb (ix2 p k)) = _
    refine congrArg _ (funext fun a => Fin.ext ?_)
    match a with
    | ⟨0, _⟩ => show win1_1.index t (0 : Fin 2) * 5000 + 1 * p.val = ((((cfg1.win 8).blk t).view.emb (ix2 p q)) 0).val; omega
    | ⟨1, _⟩ => show win1_1.index t (1 : Fin 2) * 128 + 1 * k.val = k.val; omega
  have hq : (⟨((((cfg1.win 8).blk t).view.emb (ix2 p q)) 1).val, ((((cfg1.win 8).blk t).view.emb (ix2 p q)) 1).isLt⟩ : Fin 128) = q := Fin.ext he1
  unfold applied
  simp only [w2, w3, w4, w5, w6, w7, r0, r1, hq]

/-- An index of the result array is in point `t`'s block iff each coordinate is in the block's range on its axis. -/
theorem apply_mem_blk (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v39).slice (win1_8.rect t)).set ↔ _
  rw [View.set_slice_whole, Rect.mem_set_unit]
  exact Iff.rfl

/-- Row `r` of the result lies in the block of point `r / 5000`: the ten blocks cover the array. -/
theorem apply_cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; omega
  refine ⟨⟨(i 0).val / 5000, ht⟩, flush1_8 _, ?_⟩
  rw [apply_mem_blk]
  obtain ⟨-, -, -, -, -, -, -, -, -, -, -, -, -, -, -, -, e80, e81⟩ := apply_index_facts ⟨(i 0).val / 5000, ht⟩
  intro a
  match a with
  | ⟨0, _⟩ =>
    show win1_8.index ⟨(i 0).val / 5000, ht⟩ (0 : Fin 2) * 5000 ≤ (i 0).val
      ∧ (i 0).val < win1_8.index ⟨(i 0).val / 5000, ht⟩ (0 : Fin 2) * 5000 + 5000
    rw [e80]; show (i 0).val / 5000 * 5000 ≤ (i 0).val ∧ (i 0).val < (i 0).val / 5000 * 5000 + 5000; omega
  | ⟨1, _⟩ =>
    show win1_8.index ⟨(i 0).val / 5000, ht⟩ (1 : Fin 2) * 128 ≤ (i 1).val
      ∧ (i 1).val < win1_8.index ⟨(i 0).val / 5000, ht⟩ (1 : Fin 2) * 128 + 128
    rw [e81]; omega

/-- THE RESULT ARRAY after the normalising launch: `applied` of the arrays the launch was entered with. -/
theorem apply_final (c : Dev nD) :
    (dat1 V c).arrAt 8 cfg1.N
      = applied (V c main_arg0) (V c main_v13) (V c main_arg2) (V c main_v14) (V c main_arg4) (V c main_v15) (V c main_v36) (V c main_v38) :=
  (dat1 V c).arrAt_eq_of_cover 8 _ (fun t _ => apply_flushed V c t) apply_cover

end Cert.GinNorm.Kernel

end
-- ==== Proof.KernelSpec.lean ====
/-
  The specification read through the shapes the kernel holds its operands in.

  The kernel passes each bias vector as a 1 × 128 row, and its statistics launch leaves each sum as a 1 × 256 row: lanes
  `128 c … 128 c + 127` are core `c`'s running sums of the 128 columns over that core's five blocks of rows.
-/
import proofs.«139955_j87703232184760_2_alg».proof.Proof.Spec

noncomputable section

namespace Cert.GinNorm

open Idealize.ShloMosaic Idealize.ShloMosaic.ValueIdx

/-- Node `r`'s activation in column `q`, the bias vectors given as 1 × 128 rows. -/
def actRows (X A : (⟨2, ![50000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal) (b2 : (⟨2, ![1, 128]⟩ : Shape).Idx → EReal)
    (r : Fin 50000) (q : Fin 128) : EReal :=
  mlpRow (fun k j => W1 (ix2 k j)) (fun j => b1 (ix2 (0 : Fin 1) j)) (fun k j => W2 (ix2 k j)) (fun j => b2 (ix2 (0 : Fin 1) j))
    (fun k => X (ix2 r k)) (fun k => A (ix2 r k)) q

/-- The statistics launch's first result: lane `128 c + q` holds core `c`'s running sum of column `q` after its last block. -/
def statSum (X A : (⟨2, ![50000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal) (b2 : (⟨2, ![1, 128]⟩ : Shape).Idx → EReal) :
    (⟨2, ![1, 256]⟩ : Shape).Idx → EReal :=
  fun i => accum (blockSum fun r => actRows X A W1 b1 W2 b2 r ⟨(i 1).val % 128, Nat.mod_lt _ (by decide)⟩) (5 * ((i 1).val / 128) + 4)

/-- Its second result: the same running sums of the squares. -/
def statSumSq (X A : (⟨2, ![50000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal) (b2 : (⟨2, ![1, 128]⟩ : Shape).Idx → EReal) :
    (⟨2, ![1, 256]⟩ : Shape).Idx → EReal :=
  fun i => accum (blockSum fun r => actRows X A W1 b1 W2 b2 r ⟨(i 1).val % 128, Nat.mod_lt _ (by decide)⟩
      * actRows X A W1 b1 W2 b2 r ⟨(i 1).val % 128, Nat.mod_lt _ (by decide)⟩) (5 * ((i 1).val / 128) + 4)

end Cert.GinNorm

end
-- ==== Proof.StatsPieces.lean ====
/-
  What one point of the statistics launch leaves in its two running rows, read at a lane.

  At every point the body adds to each of two 1 × 128 rows the column sums, over the block's 5000 rows, of the block's
  activations and of their squares. At the first of a core's five points it first stores the zero row to both, so the
  sums are added to zero; at the other points they are added to what the point before left. Read at lane `q`, the
  column sum of a 5000 × 128 block reduced along its rows and cast to a 1 × 128 row is the sum over the rows `p` of the
  block's entry `(p, q)`, and the block's activations at `(p, q)` are the specification's network on row `p`.
-/
import proofs.«139955_j87703232184760_2_alg».proof.Proof.Gen.KernelIdeal.Frame
import proofs.«139955_j87703232184760_2_alg».proof.Proof.KernelSpec
import proofs.«139955_j87703232184760_2_alg».proof.Proof.BlockMlp

set_option maxRecDepth 16384

noncomputable section

namespace Cert.GinNorm.Kernel

open Cert.KernelIdeal Cert.KernelIdeal.Gen Idealize.ShloMosaic Idealize.ShloMosaic.TcCoe Idealize.ShloMosaic.ValueIdx
open Idealize.SL Idealize.SL.Sem
open Idealize.ShloMosaic.Pipeline (Dat)

theorem hz0 : (![0, 0] : Fin 2 → Nat) = fun _ => 0 := funext fun a => by fin_cases a <;> rfl

section Pieces
variable {F : FTy → Type} [FloatOps F]

/-- At a later point of a core, output 6 is left at the running row plus the block's column sums. -/
theorem piece_B_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo6 : Vec F S1x128 .f32) (xo7 : Vec F S1x128 .f32) :
    out0_B_6 c i arg2 harg2 arg3 harg3 arg4 harg4 arg5 harg5 arg6 harg6 arg7 harg7 arg8 harg8 arg9 harg9 hc0 x0 x1 x2 x3 x4 x5 xo6 xo7 = k0_pay5 x0 x1 x2 x3 x4 x5 xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo6 xo7)]
  unfold kernelRun0_B
  dsimp only
  rw [View.canon_unit_zero hz0]
  simp only [View.readAt_eq_ld, harg2.read_unread, harg3.read_unread, harg4.read_unread, harg5.read_unread, harg6.read_unread,
    harg7.read_unread, harg8.read_unread, harg9.read_unread, View.ld_unit_zero (S := S5000x128) hz0, View.ld_unit_zero (S := S128x128) hz0,
    View.ld_unit_zero (S := S1x128) hz0]

/-- At a later point of a core, output 7 is left at the running row plus the column sums of the squares. -/
theorem piece_B_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo6 : Vec F S1x128 .f32) (xo7 : Vec F S1x128 .f32) :
    out0_B_7 c i arg2 harg2 arg3 harg3 arg4 harg4 arg5 harg5 arg6 harg6 arg7 harg7 arg8 harg8 arg9 harg9 hc0 x0 x1 x2 x3 x4 x5 xo6 xo7 = k0_pay1 (k0_pay4 x0 x1 x2 x3 x4 x5) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 xo6 xo7)]
  unfold kernelRun0_B
  dsimp only
  sl_unfold_words
  rw [View.canon_unit_zero hz0]
  simp only [View.readAt_eq_ld, harg2.read_unread, harg3.read_unread, harg4.read_unread, harg5.read_unread, harg6.read_unread,
    harg7.read_unread, harg8.read_unread, harg9.read_unread, View.ld_unit_zero (S := S5000x128) hz0, View.ld_unit_zero (S := S128x128) hz0,
    View.ld_unit_zero (S := S1x128) hz0]

/-- At a core's first point, output 6 is left at the zero row plus the block's column sums. -/
theorem piece_A_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_6 c i arg2 harg2 arg3 harg3 arg4 harg4 arg5 harg5 arg6 harg6 arg7 harg7 arg8 harg8 arg9 harg9 hc0 x0 x1 x2 x3 x4 x5 = k0_pay5 x0 x1 x2 x3 x4 x5 k0_pay2 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz0, View.readCov_unit_zero (S := S1x128) _ hz0]
  simp only [View.readAt_eq_ld, harg2.read_unread, harg3.read_unread, harg4.read_unread, harg5.read_unread, harg6.read_unread,
    harg7.read_unread, harg8.read_unread, harg9.read_unread, View.ld_unit_zero (S := S5000x128) hz0, View.ld_unit_zero (S := S128x128) hz0,
    View.ld_unit_zero (S := S1x128) hz0]

/-- At a core's first point, output 7 is left at the zero row plus the column sums of the squares. -/
theorem piece_A_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_7 c i arg2 harg2 arg3 harg3 arg4 harg4 arg5 harg5 arg6 harg6 arg7 harg7 arg8 harg8 arg9 harg9 hc0 x0 x1 x2 x3 x4 x5 = k0_pay1 (k0_pay4 x0 x1 x2 x3 x4 x5) k0_pay3 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz0, View.readCov_unit_zero (S := S1x128) _ hz0]
  simp only [View.readAt_eq_ld, harg2.read_unread, harg3.read_unread, harg4.read_unread, harg5.read_unread, harg6.read_unread,
    harg7.read_unread, harg8.read_unread, harg9.read_unread, View.ld_unit_zero (S := S5000x128) hz0, View.ld_unit_zero (S := S128x128) hz0,
    View.ld_unit_zero (S := S1x128) hz0]

end Pieces

section Payloads

/-- The column sums of a block of 5000 rows, cast to a 1 × 128 row, at lane `q`: the sum of column `q` down the rows. -/
theorem blockColSum_apply (y : FVec Ideal S5000x128 .f32) (q : Fin 128) :
    shapeCast S1x128 (multiReduction (F := Ideal) .add [0] S128 y 0x00000000#32 reduces_S5000x128_S128 (.inl rfl) rfl)
        shapeCasts_S128_S1x128 (ix2 (0 : Fin 1) q)
      = ∑ p : Fin 5000, y (ix2 p q) := by
  refine (shapeCast_addUnit_apply ![128] _ shapeCasts_S128_S1x128 (ix2 (0 : Fin 1) q)).trans ?_
  refine (Ideal.multiReduction_add_single y 0x00000000#32 reduces_S5000x128_S128 (.inl rfl) rfl _).trans ?_
  refine Finset.sum_congr rfl fun p _ => congrArg y (funext fun a => Fin.ext ?_)
  match a with
  | ⟨0, _⟩ => rfl
  | ⟨1, _⟩ => rfl

/-- A row of the block: the specification's network on row `p` of the block's operands, at column `q`. -/
abbrev rowAct (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) : EReal :=
  mlpRow (fun k j => x2 (ix2 k j)) (fun j => x3 (ix2 (0 : Fin 1) j)) (fun k j => x4 (ix2 k j)) (fun j => x5 (ix2 (0 : Fin 1) j))
    (fun k => x0 (ix2 p k)) (fun k => x1 (ix2 p k)) q

/-- Output 6's stored row at lane `q`: the running row's entry plus the block's column sum of the activations. -/
theorem pay5_apply (x0 x1 : Vec Ideal S5000x128 .f32) (x2 : Vec Ideal S128x128 .f32) (x3 : Vec Ideal S1x128 .f32)
    (x4 : Vec Ideal S128x128 .f32) (x5 : Vec Ideal S1x128 .f32) (v : Vec Ideal S1x128 .f32) (q : Fin 128) :
    k0_pay5 (F := Ideal) x0 x1 x2 x3 x4 x5 v (ix2 (0 : Fin 1) q)
      = v (ix2 (0 : Fin 1) q) + ∑ p : Fin 5000, rowAct x0 x1 x2 x3 x4 x5 p q := by
  unfold k0_pay5
  rw [addf_apply, shapeCast_self, blockColSum_apply]
  exact congrArg (v (ix2 (0 : Fin 1) q) + ·) (Finset.sum_congr rfl fun p _ => blockMlp_apply x0 x1 x2 x3 x4 x5 p q)

/-- Output 7's stored row at lane `q`: the running row's entry plus the block's column sum of the squared activations. -/
theorem pay1_apply (x0 x1 : Vec Ideal S5000x128 .f32) (x2 : Vec Ideal S128x128 .f32) (x3 : Vec Ideal S1x128 .f32)
    (x4 : Vec Ideal S128x128 .f32) (x5 : Vec Ideal S1x128 .f32) (v : Vec Ideal S1x128 .f32) (q : Fin 128) :
    k0_pay1 (F := Ideal) (k0_pay4 (F := Ideal) x0 x1 x2 x3 x4 x5) v (ix2 (0 : Fin 1) q)
      = v (ix2 (0 : Fin 1) q) + ∑ p : Fin 5000, rowAct x0 x1 x2 x3 x4 x5 p q * rowAct x0 x1 x2 x3 x4 x5 p q := by
  unfold k0_pay1
  rw [addf_apply, shapeCast_self, blockColSum_apply]
  refine congrArg (v (ix2 (0 : Fin 1) q) + ·) (Finset.sum_congr rfl fun p _ => ?_)
  rw [mulf_apply, blockMlp_apply]

theorem pay2_apply (q : Fin 128) : k0_pay2 (F := Ideal) (ix2 (0 : Fin 1) q) = zero := rfl
theorem pay3_apply (q : Fin 128) : k0_pay3 (F := Ideal) (ix2 (0 : Fin 1) q) = zero := rfl

end Payloads

section Steps

/-- A core's first point leaves in output 6, at lane `q`, zero plus the block's column sum. -/
theorem stepA_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec Ideal S5000x128 .f32) (x2 : Vec Ideal S128x128 .f32) (x3 : Vec Ideal S1x128 .f32) (x4 : Vec Ideal S128x128 .f32) (x5 : Vec Ideal S1x128 .f32) (q : Fin 128) :
    out0_A_6 (F := Ideal) c i arg2 harg2 arg3 harg3 arg4 harg4 arg5 harg5 arg6 harg6 arg7 harg7 arg8 harg8 arg9 harg9 hc0 x0 x1 x2 x3 x4 x5 (ix2 (0 : Fin 1) q)
      = zero + ∑ p : Fin 5000, rowAct x0 x1 x2 x3 x4 x5 p q :=
  (congrFun (piece_A_6 (F := Ideal) c i arg2 harg2 arg3 harg3 arg4 harg4 arg5 harg5 arg6 harg6 arg7 harg7 arg8 harg8 arg9 harg9 hc0 x0 x1 x2 x3 x4 x5) (ix2 (0 : Fin 1) q)).trans
    (pay5_apply x0 x1 x2 x3 x4 x5 (k0_pay2 (F := Ideal)) q)

/-- A core's first point leaves in output 7, at lane `q`, zero plus the block's column sum of squares. -/
theorem stepA_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec Ideal S5000x128 .f32) (x2 : Vec Ideal S128x128 .f32) (x3 : Vec Ideal S1x128 .f32) (x4 : Vec Ideal S128x128 .f32) (x5 : Vec Ideal S1x128 .f32) (q : Fin 128) :
    out0_A_7 (F := Ideal) c i arg2 harg2 arg3 harg3 arg4 harg4 arg5 harg5 arg6 harg6 arg7 harg7 arg8 harg8 arg9 harg9 hc0 x0 x1 x2 x3 x4 x5 (ix2 (0 : Fin 1) q)
      = zero + ∑ p : Fin 5000, rowAct x0 x1 x2 x3 x4 x5 p q * rowAct x0 x1 x2 x3 x4 x5 p q :=
  (congrFun (piece_A_7 (F := Ideal) c i arg2 harg2 arg3 harg3 arg4 harg4 arg5 harg5 arg6 harg6 arg7 harg7 arg8 harg8 arg9 harg9 hc0 x0 x1 x2 x3 x4 x5) (ix2 (0 : Fin 1) q)).trans
    (pay1_apply x0 x1 x2 x3 x4 x5 (k0_pay3 (F := Ideal)) q)

/-- A later point leaves in output 6, at lane `q`, the running entry plus the block's column sum. -/
theorem stepB_6 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec Ideal S5000x128 .f32) (x2 : Vec Ideal S128x128 .f32) (x3 : Vec Ideal S1x128 .f32) (x4 : Vec Ideal S128x128 .f32) (x5 : Vec Ideal S1x128 .f32) (xo6 xo7 : Vec Ideal S1x128 .f32) (q : Fin 128) :
    out0_B_6 (F := Ideal) c i arg2 harg2 arg3 harg3 arg4 harg4 arg5 harg5 arg6 harg6 arg7 harg7 arg8 harg8 arg9 harg9 hc0 x0 x1 x2 x3 x4 x5 xo6 xo7 (ix2 (0 : Fin 1) q)
      = xo6 (ix2 (0 : Fin 1) q) + ∑ p : Fin 5000, rowAct x0 x1 x2 x3 x4 x5 p q :=
  (congrFun (piece_B_6 (F := Ideal) c i arg2 harg2 arg3 harg3 arg4 harg4 arg5 harg5 arg6 harg6 arg7 harg7 arg8 harg8 arg9 harg9 hc0 x0 x1 x2 x3 x4 x5 xo6 xo7) (ix2 (0 : Fin 1) q)).trans
    (pay5_apply x0 x1 x2 x3 x4 x5 xo6 q)

/-- A later point leaves in output 7, at lane `q`, the running entry plus the block's column sum of squares. -/
theorem stepB_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec Ideal S5000x128 .f32) (x2 : Vec Ideal S128x128 .f32) (x3 : Vec Ideal S1x128 .f32) (x4 : Vec Ideal S128x128 .f32) (x5 : Vec Ideal S1x128 .f32) (xo6 xo7 : Vec Ideal S1x128 .f32) (q : Fin 128) :
    out0_B_7 (F := Ideal) c i arg2 harg2 arg3 harg3 arg4 harg4 arg5 harg5 arg6 harg6 arg7 harg7 arg8 harg8 arg9 harg9 hc0 x0 x1 x2 x3 x4 x5 xo6 xo7 (ix2 (0 : Fin 1) q)
      = xo7 (ix2 (0 : Fin 1) q) + ∑ p : Fin 5000, rowAct x0 x1 x2 x3 x4 x5 p q * rowAct x0 x1 x2 x3 x4 x5 p q :=
  (congrFun (piece_B_7 (F := Ideal) c i arg2 harg2 arg3 harg3 arg4 harg4 arg5 harg5 arg6 harg6 arg7 harg7 arg8 harg8 arg9 harg9 hc0 x0 x1 x2 x3 x4 x5 xo6 xo7) (ix2 (0 : Fin 1) q)).trans
    (pay1_apply x0 x1 x2 x3 x4 x5 xo7 q)

end Steps

end Cert.GinNorm.Kernel

end
-- ==== Proof.StatsValue.lean ====
/-
  What the statistics launch leaves in its two result rows.

  The launch walks ten blocks of 5000 node rows, five per core. At block `t` its body reads rows `5000 t … 5000 t + 4999`
  of the features and of the neighbours' sums and the two weight matrices and bias rows whole, and adds the block's
  column sums of the activations, and of their squares, to two running 1 × 128 rows, restarted from zero at each core's
  first block. By induction on the point the running rows hold the specification's running sums `accum` of the block sums.
  Each core's rows are written back after its fifth block to lanes `128 c … 128 c + 127` of a 1 × 256 row, and the two
  cores' lanes cover that row, so each result array ends as ONE function of the arrays the launch was entered with.
-/
import proofs.«139955_j87703232184760_2_alg».proof.Proof.StatsPieces

set_option maxRecDepth 16384

noncomputable section

namespace Cert.GinNorm.Kernel

open Cert.KernelIdeal Cert.KernelIdeal.Gen Idealize.ShloMosaic Idealize.ShloMosaic.TcCoe Idealize.ShloMosaic.ValueIdx
open Idealize.SL Idealize.SL.Sem
open Idealize.ShloMosaic.Pipeline (Dat)

/-- The printed index maps over the grid: the row windows sit at block `t` of the rows, the weights and bias rows at the one
    block of their arrays, and the two result windows at block `t / 5` (the core) of the 256 lanes. -/
theorem stats_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val / 5
    ∧ win0_7.index t (0 : Fin 2) = 0 ∧ win0_7.index t (1 : Fin 2) = t.val / 5 :=
  (by decide +kernel : ∀ t : Fin grid0.N, _)

/-- The first result at a lane known to be lane `q` of the core whose last point is `n`. -/
theorem statSum_apply (X A : (⟨2, ![50000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal) (b2 : (⟨2, ![1, 128]⟩ : Shape).Idx → EReal)
    (i : (⟨2, ![1, 256]⟩ : Shape).Idx) (q : Fin 128) (n : ℕ) (hq : (i 1).val % 128 = q.val) (hn : 5 * ((i 1).val / 128) + 4 = n) :
    statSum X A W1 b1 W2 b2 i = accum (blockSum fun r => actRows X A W1 b1 W2 b2 r q) n := by
  have e : (⟨(i 1).val % 128, Nat.mod_lt _ (by decide)⟩ : Fin 128) = q := Fin.ext hq
  unfold statSum
  dsimp only
  rw [e, hn]

/-- The second result likewise. -/
theorem statSumSq_apply (X A : (⟨2, ![50000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal) (b2 : (⟨2, ![1, 128]⟩ : Shape).Idx → EReal)
    (i : (⟨2, ![1, 256]⟩ : Shape).Idx) (q : Fin 128) (n : ℕ) (hq : (i 1).val % 128 = q.val) (hn : 5 * ((i 1).val / 128) + 4 = n) :
    statSumSq X A W1 b1 W2 b2 i
      = accum (blockSum fun r => actRows X A W1 b1 W2 b2 r q * actRows X A W1 b1 W2 b2 r q) n := by
  have e : (⟨(i 1).val % 128, Nat.mod_lt _ (by decide)⟩ : Fin 128) = q := Fin.ext hq
  unfold statSumSq
  dsimp only
  rw [e, hn]

variable (V : (c : Dev nD) → (b : Ref sig .tc) → Buf (Elt Ideal) ((c : Thread nD τ).loc b))

/-- Row `p` of point `t`'s block is node `5000 t + p`: the block's operands are rows `5000 t …` of the features and of the
    neighbours' sums, and the weights and bias rows whole. -/
theorem rowAct_iblk (c : Dev nD) (t : Fin cfg0.N) (p : Fin 5000) (q : Fin 128) (hr : 5000 * t.val + p.val < 50000) :
    rowAct (iblk0 V c 0 t) (iblk0 V c 1 t) (iblk0 V c 2 t) (iblk0 V c 3 t) (iblk0 V c 4 t) (iblk0 V c 5 t) p q = actRows (V c main_arg0) (V c main_v13) (V c main_arg2) (V c main_v14) (V c main_arg4) (V c main_v15) ⟨5000 * t.val + p.val, hr⟩ q := by
  obtain ⟨e00, e01, e10, e11, e20, e21, e30, e31, e40, e41, e50, e51, -, -, -, -⟩ := stats_index_facts t
  have w2 : ∀ y : S128x128.Idx, iblk0 V c 2 t y = V c main_arg2 y := fun y => by
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have w3 : ∀ y : S1x128.Idx, iblk0 V c 3 t y = V c main_v14 y := fun y => by
    show V c main_v14 (((cfg0.win 3).blk t).view.emb y) = V c main_v14 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have w4 : ∀ y : S128x128.Idx, iblk0 V c 4 t y = V c main_arg4 y := fun y => by
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have w5 : ∀ y : S1x128.Idx, iblk0 V c 5 t y = V c main_v15 y := fun y => by
    show V c main_v15 (((cfg0.win 5).blk t).view.emb y) = V c main_v15 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  have r0 : ∀ k : Fin 128, iblk0 V c 0 t (ix2 p k) = V c main_arg0 (ix2 (⟨5000 * t.val + p.val, hr⟩ : Fin 50000) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  have r1 : ∀ k : Fin 128, iblk0 V c 1 t (ix2 p k) = V c main_v13 (ix2 (⟨5000 * t.val + p.val, hr⟩ : Fin 50000) k) := fun k => by
    show V c main_v13 (((cfg0.win 1).blk t).view.emb (ix2 p k)) = _
    refine congrArg _ (funext fun a => Fin.ext ?_)
    match a with
    | ⟨0, _⟩ => show win0_1.index t (0 : Fin 2) * 5000 + 1 * p.val = 5000 * t.val + p.val; omega
    | ⟨1, _⟩ => show win0_1.index t (1 : Fin 2) * 128 + 1 * k.val = k.val; omega
  unfold rowAct actRows
  simp only [w2, w3, w4, w5, r0, r1]

/-- The column sum over point `t`'s block is the specification's block sum of the activations' column. -/
theorem blockRows (c : Dev nD) (t : Fin cfg0.N) (q : Fin 128) :
    ∑ p : Fin 5000, rowAct (iblk0 V c 0 t) (iblk0 V c 1 t) (iblk0 V c 2 t) (iblk0 V c 3 t) (iblk0 V c 4 t) (iblk0 V c 5 t) p q = blockSum (fun r => actRows (V c main_arg0) (V c main_v13) (V c main_arg2) (V c main_v14) (V c main_arg4) (V c main_v15) r q) t.val := by
  have hN : t.val < 10 := lt_of_lt_of_eq t.isLt (show cfg0.N = 10 from N_0)
  unfold blockSum
  rw [dif_pos hN]
  exact Finset.sum_congr rfl fun p _ => rowAct_iblk V c t p q _

/-- The same for the squares. -/
theorem blockRowsSq (c : Dev nD) (t : Fin cfg0.N) (q : Fin 128) :
    ∑ p : Fin 5000, rowAct (iblk0 V c 0 t) (iblk0 V c 1 t) (iblk0 V c 2 t) (iblk0 V c 3 t) (iblk0 V c 4 t) (iblk0 V c 5 t) p q * rowAct (iblk0 V c 0 t) (iblk0 V c 1 t) (iblk0 V c 2 t) (iblk0 V c 3 t) (iblk0 V c 4 t) (iblk0 V c 5 t) p q
      = blockSum (fun r => actRows (V c main_arg0) (V c main_v13) (V c main_arg2) (V c main_v14) (V c main_arg4) (V c main_v15) r q * actRows (V c main_arg0) (V c main_v13) (V c main_arg2) (V c main_v14) (V c main_arg4) (V c main_v15) r q) t.val := by
  have hN : t.val < 10 := lt_of_lt_of_eq t.isLt (show cfg0.N = 10 from N_0)
  unfold blockSum
  rw [dif_pos hN]
  exact Finset.sum_congr rfl fun p _ => congrArg₂ (· * ·) (rowAct_iblk V c t p q _) (rowAct_iblk V c t p q _)

/-- THE RUNNING SUMS. After point `n` the two outputs' buffers hold, at lane `q`, the specification's running sums of
    column `q` and of its squares: restarted from zero at a core's first point, carried on at the others. -/
theorem outs_inv (c : Dev nD) (q : Fin 128) : ∀ (n : ℕ) (hn : n < cfg0.N),
    (outsAt0 V c n hn).1 (ix2 (0 : Fin 1) q) = accum (blockSum fun r => actRows (V c main_arg0) (V c main_v13) (V c main_arg2) (V c main_v14) (V c main_arg4) (V c main_v15) r q) n
    ∧ (outsAt0 V c n hn).2 (ix2 (0 : Fin 1) q)
        = accum (blockSum fun r => actRows (V c main_arg0) (V c main_v13) (V c main_arg2) (V c main_v14) (V c main_arg4) (V c main_v15) r q * actRows (V c main_arg0) (V c main_v13) (V c main_arg2) (V c main_v14) (V c main_arg4) (V c main_v15) r q) n
  | 0, hn => by
    rw [outsAt0_A V c ⟨0, hn⟩ rfl]
    dsimp only
    exact ⟨(stepA_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) q).trans
        (congrArg (zero + ·) (blockRows V c ⟨0, hn⟩ q)),
      (stepA_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) q).trans
        (congrArg (zero + ·) (blockRowsSq V c ⟨0, hn⟩ q))⟩
  | n + 1, hn => by
    by_cases h : (n + 1) % 5 = 0
    · rw [outsAt0_A V c ⟨n + 1, hn⟩ h]
      dsimp only
      refine ⟨(stepA_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) q).trans ?_,
        (stepA_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) q).trans ?_⟩
      · rw [accum, if_pos h]; exact congrArg (zero + ·) (blockRows V c ⟨n + 1, hn⟩ q)
      · rw [accum, if_pos h]; exact congrArg (zero + ·) (blockRowsSq V c ⟨n + 1, hn⟩ q)
    · obtain ⟨ih6, ih7⟩ := outs_inv c q n (Nat.lt_of_succ_lt hn)
      rw [outsAt0_B V c ⟨n + 1, hn⟩ h]
      dsimp only
      refine ⟨(stepB_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h' => h ((hcond0_0 ⟨n + 1, hn⟩).mp h')) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
          (outsAt0 V c n (Nat.lt_of_succ_lt hn)).1 (outsAt0 V c n (Nat.lt_of_succ_lt hn)).2 q).trans ?_,
        (stepB_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h' => h ((hcond0_0 ⟨n + 1, hn⟩).mp h')) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
          (outsAt0 V c n (Nat.lt_of_succ_lt hn)).1 (outsAt0 V c n (Nat.lt_of_succ_lt hn)).2 q).trans ?_⟩
      · rw [accum, if_neg h]; exact congrArg₂ (· + ·) ih6 (blockRows V c ⟨n + 1, hn⟩ q)
      · rw [accum, if_neg h]; exact congrArg₂ (· + ·) ih7 (blockRowsSq V c ⟨n + 1, hn⟩ q)

/-- WHAT A FLUSHING POINT WRITES BACK to result 0: the point is the last of its core's five, and its block is the core's 128
    lanes of the row, so lane `q` of the block holds the core's final running sum of column `q`. -/
theorem stats_flushed6 (c : Dev nD) (t : Fin cfg0.N) (hf : (cfg0.win 6).flush t = true) :
    (dat0 V c).flushed 6 t = ((cfg0.win 6).blk t).view.read (Elt Ideal) (statSum (V c main_arg0) (V c main_v13) (V c main_arg2) (V c main_v14) (V c main_arg4) (V c main_v15)) := by
  have h4 : t.val % 5 = 4 := (flush0_6 t).mp hf
  show (cfg0.win 6).cut (grid0.coords t) ((dat0 V c).after 6 t) = _
  rw [after0_6]
  obtain ⟨-, -, -, -, -, -, -, -, -, -, -, -, e60, e61, e70, e71⟩ := stats_index_facts t
  funext j
  obtain ⟨z, q, rfl⟩ : ∃ (z : Fin 1) (q : Fin 128), j = ix2 z q := ⟨j 0, j 1, eq_ix2 j⟩
  obtain rfl : z = 0 := Subsingleton.elim _ _
  show (outsAt0 V c t.val t.isLt).1 (ix2 (0 : Fin 1) q)
    = statSum (V c main_arg0) (V c main_v13) (V c main_arg2) (V c main_v14) (V c main_arg4) (V c main_v15) (((cfg0.win 6).blk t).view.emb (ix2 (0 : Fin 1) q))
  refine ((outs_inv V c q t.val t.isLt).1).trans (Eq.symm ?_)
  have he1 : ((((cfg0.win 6).blk t).view.emb (ix2 (0 : Fin 1) q)) 1).val = t.val / 5 * 128 + q.val := by
    show win0_6.index t (1 : Fin 2) * 128 + 1 * q.val = _; omega
  have hq : q.val < 128 := q.isLt
  exact statSum_apply (V c main_arg0) (V c main_v13) (V c main_arg2) (V c main_v14) (V c main_arg4) (V c main_v15) _ q t.val (by rw [he1]; omega) (by rw [he1]; omega)

/-- An index of result 0 is in point `t`'s block iff each coordinate is in the block's range on its axis. -/
theorem stats_mem_blk6 (t : Fin cfg0.N) (i : S1x256.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v18_0).slice (win0_6.rect t)).set ↔ _
  rw [View.set_slice_whole, Rect.mem_set_unit]
  exact Iff.rfl

/-- Lane `l` of result 0 lies in the block of core `l / 128`'s last point: the two flushing points cover the row. -/
theorem stats_cover6 (i : S1x256.Idx) :
    ∃ t : Fin cfg0.N, (cfg0.win 6).flush t = true ∧ i ∈ ((cfg0.win 6).blk t).view.set := by
  have hi0 : (i 0).val < 1 := (i 0).isLt
  have hi1 : (i 1).val < 256 := (i 1).isLt
  have hN : grid0.N = 10 := N_0
  have ht : 5 * ((i 1).val / 128) + 4 < cfg0.N := by show 5 * ((i 1).val / 128) + 4 < grid0.N; omega
  refine ⟨⟨5 * ((i 1).val / 128) + 4, ht⟩, (flush0_6 _).mpr (by show (5 * ((i 1).val / 128) + 4) % 5 = 4; omega), ?_⟩
  rw [stats_mem_blk6]
  obtain ⟨-, -, -, -, -, -, -, -, -, -, -, -, e60, e61, e70, e71⟩ := stats_index_facts ⟨5 * ((i 1).val / 128) + 4, ht⟩
  intro a
  match a with
  | ⟨0, _⟩ =>
    show win0_6.index ⟨5 * ((i 1).val / 128) + 4, ht⟩ (0 : Fin 2) * 1 ≤ (i 0).val
      ∧ (i 0).val < win0_6.index ⟨5 * ((i 1).val / 128) + 4, ht⟩ (0 : Fin 2) * 1 + 1
    rw [e60]; omega
  | ⟨1, _⟩ =>
    show win0_6.index ⟨5 * ((i 1).val / 128) + 4, ht⟩ (1 : Fin 2) * 128 ≤ (i 1).val
      ∧ (i 1).val < win0_6.index ⟨5 * ((i 1).val / 128) + 4, ht⟩ (1 : Fin 2) * 128 + 128
    rw [e61]; show (5 * ((i 1).val / 128) + 4) / 5 * 128 ≤ (i 1).val ∧ (i 1).val < (5 * ((i 1).val / 128) + 4) / 5 * 128 + 128; omega

/-- RESULT 0 after the statistics launch: the specification's first row of running sums of the arrays the launch
    was entered with. -/
theorem stats_final6 (c : Dev nD) :
    (dat0 V c).arrAt 6 cfg0.N = statSum (V c main_arg0) (V c main_v13) (V c main_arg2) (V c main_v14) (V c main_arg4) (V c main_v15) :=
  (dat0 V c).arrAt_eq_of_cover 6 _ (fun t hf => stats_flushed6 V c t hf) stats_cover6

/-- WHAT A FLUSHING POINT WRITES BACK to result 1: the point is the last of its core's five, and its block is the core's 128
    lanes of the row, so lane `q` of the block holds the core's final running sum of squares of column `q`. -/
theorem stats_flushed7 (c : Dev nD) (t : Fin cfg0.N) (hf : (cfg0.win 7).flush t = true) :
    (dat0 V c).flushed 7 t = ((cfg0.win 7).blk t).view.read (Elt Ideal) (statSumSq (V c main_arg0) (V c main_v13) (V c main_arg2) (V c main_v14) (V c main_arg4) (V c main_v15)) := by
  have h4 : t.val % 5 = 4 := (flush0_7 t).mp hf
  show (cfg0.win 7).cut (grid0.coords t) ((dat0 V c).after 7 t) = _
  rw [after0_7]
  obtain ⟨-, -, -, -, -, -, -, -, -, -, -, -, e60, e61, e70, e71⟩ := stats_index_facts t
  funext j
  obtain ⟨z, q, rfl⟩ : ∃ (z : Fin 1) (q : Fin 128), j = ix2 z q := ⟨j 0, j 1, eq_ix2 j⟩
  obtain rfl : z = 0 := Subsingleton.elim _ _
  show (outsAt0 V c t.val t.isLt).2 (ix2 (0 : Fin 1) q)
    = statSumSq (V c main_arg0) (V c main_v13) (V c main_arg2) (V c main_v14) (V c main_arg4) (V c main_v15) (((cfg0.win 7).blk t).view.emb (ix2 (0 : Fin 1) q))
  refine ((outs_inv V c q t.val t.isLt).2).trans (Eq.symm ?_)
  have he1 : ((((cfg0.win 7).blk t).view.emb (ix2 (0 : Fin 1) q)) 1).val = t.val / 5 * 128 + q.val := by
    show win0_7.index t (1 : Fin 2) * 128 + 1 * q.val = _; omega
  have hq : q.val < 128 := q.isLt
  exact statSumSq_apply (V c main_arg0) (V c main_v13) (V c main_arg2) (V c main_v14) (V c main_arg4) (V c main_v15) _ q t.val (by rw [he1]; omega) (by rw [he1]; omega)

/-- An index of result 1 is in point `t`'s block iff each coordinate is in the block's range on its axis. -/
theorem stats_mem_blk7 (t : Fin cfg0.N) (i : S1x256.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v18_1).slice (win0_7.rect t)).set ↔ _
  rw [View.set_slice_whole, Rect.mem_set_unit]
  exact Iff.rfl

/-- Lane `l` of result 1 lies in the block of core `l / 128`'s last point: the two flushing points cover the row. -/
theorem stats_cover7 (i : S1x256.Idx) :
    ∃ t : Fin cfg0.N, (cfg0.win 7).flush t = true ∧ i ∈ ((cfg0.win 7).blk t).view.set := by
  have hi0 : (i 0).val < 1 := (i 0).isLt
  have hi1 : (i 1).val < 256 := (i 1).isLt
  have hN : grid0.N = 10 := N_0
  have ht : 5 * ((i 1).val / 128) + 4 < cfg0.N := by show 5 * ((i 1).val / 128) + 4 < grid0.N; omega
  refine ⟨⟨5 * ((i 1).val / 128) + 4, ht⟩, (flush0_7 _).mpr (by show (5 * ((i 1).val / 128) + 4) % 5 = 4; omega), ?_⟩
  rw [stats_mem_blk7]
  obtain ⟨-, -, -, -, -, -, -, -, -, -, -, -, e60, e61, e70, e71⟩ := stats_index_facts ⟨5 * ((i 1).val / 128) + 4, ht⟩
  intro a
  match a with
  | ⟨0, _⟩ =>
    show win0_7.index ⟨5 * ((i 1).val / 128) + 4, ht⟩ (0 : Fin 2) * 1 ≤ (i 0).val
      ∧ (i 0).val < win0_7.index ⟨5 * ((i 1).val / 128) + 4, ht⟩ (0 : Fin 2) * 1 + 1
    rw [e70]; omega
  | ⟨1, _⟩ =>
    show win0_7.index ⟨5 * ((i 1).val / 128) + 4, ht⟩ (1 : Fin 2) * 128 ≤ (i 1).val
      ∧ (i 1).val < win0_7.index ⟨5 * ((i 1).val / 128) + 4, ht⟩ (1 : Fin 2) * 128 + 128
    rw [e71]; show (5 * ((i 1).val / 128) + 4) / 5 * 128 ≤ (i 1).val ∧ (i 1).val < (5 * ((i 1).val / 128) + 4) / 5 * 128 + 128; omega

/-- RESULT 1 after the statistics launch: the specification's second row of running sums of the arrays the launch
    was entered with. -/
theorem stats_final7 (c : Dev nD) :
    (dat0 V c).arrAt 7 cfg0.N = statSumSq (V c main_arg0) (V c main_v13) (V c main_arg2) (V c main_v14) (V c main_arg4) (V c main_v15) :=
  (dat0 V c).arrAt_eq_of_cover 7 _ (fun t hf => stats_flushed7 V c t hf) stats_cover7

end Cert.GinNorm.Kernel

end
-- ==== Proof.HostRows.lean ====
/-
  The host operations between the two launches, read at a column.

  Each of the rows of Proof/HostTerms.lean is a chain of layout operations (a reshape, a broadcast) around elementwise
  arithmetic and one reduction over the two cores. Read at column `q` of the one row:

  * the reshape of the 1 × 256 row of per-core sums to 2 × 128 puts core `k`'s lane `q` at `(k, q)`, i.e. it reads the
    row at column `128 · k + q` (both positions have row-major offset `128 · k + q`);
  * the reduction over the first axis, started from the literal zero, is `0 + Σ_k` of those two entries;
  * the mean divides that by the literal `50000`;
  * scale and shift are the elementwise expressions in the means, `γ` and `β`.
-/
import proofs.«139955_j87703232184760_2_alg».proof.Proof.HostTerms
import proofs.«139955_j87703232184760_2_alg».proof.Proof.Spec
import Idealize.ShloMosaic.Lib.ValueIdx
import Idealize.ShloMosaic.Lib.Pipeline.Value
import Idealize.ShloMosaic.PureOps.Ideal.Laws

noncomputable section

namespace Cert.GinNorm.Kernel

open Cert.KernelIdeal Cert.KernelIdeal.Gen Idealize.ShloMosaic Idealize.ShloMosaic.ValueIdx

/-! ## The layout operations at an index -/

/-- A 128-vector broadcast along the second axis of a 1 × 128 row is read at the column. -/
theorem rowOf_apply (y : FVec Ideal S128 .f32) (q : Fin 128) :
    broadcastInDim S1x128 ![1] bcast_S128_S1x128_1 y (ix2 (0 : Fin 1) q) = y (ix1 q) :=
  broadcastInDim_apply _ bcast_S128_S1x128_1 y (ix2 (0 : Fin 1) q) (ix1 q) (fun a => match a with
    | ⟨0, _⟩ => by show q.val = if (128 : Nat) = 1 then 0 else q.val; rw [if_neg (by decide)])

/-- A scalar literal broadcast to a row reads the literal's value everywhere. -/
theorem splat_apply (b : BitVec 32) (i : S1x128.Idx) :
    broadcastInDim S1x128 ![] bcast_S_S1x128 (constant (F := Ideal) S_ .f32 b) i = Ideal.ofBits .f32 b :=
  broadcastInDim_apply _ bcast_S_S1x128 (constant (F := Ideal) S_ .f32 b) i ix0 (fun a => a.elim0)

/-- The 1 × 256 row reshaped to 2 × 128, read at `(k, q)`: the row at column `128 · k + q`. -/
theorem fold_apply (s : FVec Ideal S1x256 .f32) (k : Fin 2) (q : Fin 128) :
    shapeCast S2x128 s shapeCasts_S1x256_S2x128 (ix2 k q)
      = s (ix2 (0 : Fin 1) (⟨128 * k.val + q.val, by have := k.isLt; have := q.isLt; omega⟩ : Fin 256)) :=
  shapeCast_apply s shapeCasts_S1x256_S2x128 (ix2 k q) _
    (by rewrite [Shape.rowMajor_val_two, Shape.rowMajor_val_two]
        show 0 * 256 + (128 * k.val + q.val) = k.val * 128 + q.val
        omega)

/-- The sum over the first axis of a 2 × 128 array from an initial scalar, read at column `q`. -/
theorem colSum_apply (y : FVec Ideal S2x128 .f32) (init : FVec Ideal S_ .f32) (q : Fin 128) :
    Host.reduceAdd (F := Ideal) y init reducesTo_S2x128_S128_d0 h_S_ (ix1 q)
      = init (Shape.Idx.first h_S_) + ∑ k : Fin 2, y (ix2 k q) := by
  simp only [Host.reduceAdd, Ideal.hostReduceAdd_def]
  rw [Ideal.hostReduceAdd_single reducesTo_S2x128_S128_d0 (by decide)]
  refine congrArg (_ + ·) (Finset.sum_congr rfl fun k _ => ?_)
  exact congrArg y (funext fun a => Fin.ext (by match a with | ⟨0, _⟩ => rfl | ⟨1, _⟩ => rfl))

/-- The host's quotient at an index is the ideal division of the elements. -/
theorem hostDivf_apply {s : Shape} {φ : FTy} (a b : FVec Ideal s φ) (i : s.Idx) :
    Host.divf (F := Ideal) a b i = Ideal.div (a i) (b i) := rfl

/-- The host's reciprocal square root at an index is the ideal one of the element. -/
theorem hostRsqrt_apply {s : Shape} {φ : FTy} (a : FVec Ideal s φ) (i : s.Idx) :
    Host.rsqrt (F := Ideal) a i = Ideal.rsqrt (a i) := rfl

/-! ## The rows at a column -/

/-- A 128-vector laid out as a row is read at the column. -/
theorem asRow_apply (v : FVec Ideal S128 .f32) (q : Fin 128) : asRow v (ix2 (0 : Fin 1) q) = v (ix1 q) := by
  unfold asRow
  exact shapeCast_apply v shapeCasts_S128_S1x128 (ix2 (0 : Fin 1) q) (ix1 q)
    (by rewrite [Shape.rowMajor_val_two, Shape.rowMajor_val_one]
        show q.val = 0 * 128 + q.val
        omega)

/-- The mean at column `q`: zero plus the two cores' lanes `q`, over the row count. -/
theorem meanRow_apply (s : FVec Ideal S1x256 .f32) (q : Fin 128) :
    meanRow s (ix2 (0 : Fin 1) q)
      = Ideal.div (Cert.GinNorm.zero + ∑ k : Fin 2, s (ix2 (0 : Fin 1) (⟨128 * k.val + q.val, by have := k.isLt; have := q.isLt; omega⟩ : Fin 256))) Cert.GinNorm.cnt := by
  unfold meanRow
  rw [hostDivf_apply, rowOf_apply, splat_apply, colSum_apply]
  simp only [fold_apply]
  rfl

/-- The scale at column `q`: `γ · rsqrt(max(E[y²] − mean², 0) + ε)`. -/
theorem scaleRow_apply (s1 s2 : FVec Ideal S1x256 .f32) (g : FVec Ideal S1x128 .f32) (q : Fin 128) :
    scaleRow s1 s2 g (ix2 (0 : Fin 1) q)
      = g (ix2 (0 : Fin 1) q) * Ideal.rsqrt (max (meanRow s2 (ix2 (0 : Fin 1) q) - meanRow s1 (ix2 (0 : Fin 1) q) * meanRow s1 (ix2 (0 : Fin 1) q)) Cert.GinNorm.zero + Cert.GinNorm.eps) := by
  unfold scaleRow
  rw [mulf_apply, hostRsqrt_apply, addf_apply, maximumf_apply, subf_apply, mulf_apply, splat_apply, splat_apply]

/-- The shift at column `q`: `β − mean · scale`. -/
theorem shiftRow_apply (s1 s2 : FVec Ideal S1x256 .f32) (g b : FVec Ideal S1x128 .f32) (q : Fin 128) :
    shiftRow s1 s2 g b (ix2 (0 : Fin 1) q) = b (ix2 (0 : Fin 1) q) - meanRow s1 (ix2 (0 : Fin 1) q) * scaleRow s1 s2 g (ix2 (0 : Fin 1) q) := rfl

end Cert.GinNorm.Kernel

end
-- ==== Proof.KernelValue.lean ====
/-
  The idealized kernel's result array as one function of the argument arrays.

  The normalising launch leaves `applied` of its operands (ApplyValue); its operands are the argument arrays, the
  neighbours' sums, and the scale and shift rows the host formed from the statistics launch's two rows of sums (Stages);
  those rows hold, in lane `128 c + q`, core `c`'s running sum of column `q` of the activations, resp. of their squares
  (StatsValue). Read at a column, the host's operations on the rows are the specification's `total`, `meanK` and `scaleK`
  (HostRows), so the result array is the specification's `resultMoments`.
-/
import proofs.«139955_j87703232184760_2_alg».proof.Proof.Stages
import proofs.«139955_j87703232184760_2_alg».proof.Proof.ApplyValue
import proofs.«139955_j87703232184760_2_alg».proof.Proof.StatsValue
import proofs.«139955_j87703232184760_2_alg».proof.Proof.HostRows
import proofs.«139955_j87703232184760_2_alg».proof.Proof.KernelSpec

set_option maxRecDepth 16384

noncomputable section

namespace Cert.GinNorm.Kernel

open Cert.KernelIdeal Cert.KernelIdeal.Gen Idealize.ShloMosaic Idealize.ShloMosaic.TcCoe Idealize.ShloMosaic.ValueIdx
open Idealize.SL Idealize.SL.Sem

/-- With the bias vectors laid out as rows, the row form of the activations is the specification's. -/
theorem actRows_asRow (X A : S50000x128.Idx → EReal) (W1 : S128x128.Idx → EReal) (b1 : S128.Idx → EReal) (W2 : S128x128.Idx → EReal)
    (b2 : S128.Idx → EReal) (r : Fin 50000) (q : Fin 128) :
    actRows X A W1 (asRow b1) W2 (asRow b2) r q = act X A W1 b1 W2 b2 r q := by
  unfold actRows act
  simp only [asRow_apply]

/-- Lane `128 k + q` of the row of sums is core `k`'s running sum of column `q` after its fifth block. -/
theorem statSum_lane (X A : S50000x128.Idx → EReal) (W1 : S128x128.Idx → EReal) (b1 : S128.Idx → EReal) (W2 : S128x128.Idx → EReal)
    (b2 : S128.Idx → EReal) (k : Fin 2) (q : Fin 128) :
    statSum X A W1 (asRow b1) W2 (asRow b2) (ix2 (0 : Fin 1) (⟨128 * k.val + q.val, by have := k.isLt; have := q.isLt; omega⟩ : Fin 256))
      = accum (blockSum fun r => act X A W1 b1 W2 b2 r q) (5 * k.val + 4) := by
  have hk := k.isLt; have hq' := q.isLt
  have h1 : (128 * k.val + q.val) % 128 = q.val := by omega
  have h2 : (128 * k.val + q.val) / 128 = k.val := by omega
  have hq : (⟨(128 * k.val + q.val) % 128, Nat.mod_lt _ (by decide)⟩ : Fin 128) = q := Fin.ext h1
  show accum (blockSum fun r => actRows X A W1 (asRow b1) W2 (asRow b2) r ⟨(128 * k.val + q.val) % 128, Nat.mod_lt _ (by decide)⟩)
      (5 * ((128 * k.val + q.val) / 128) + 4) = _
  rw [hq, h2]
  simp only [actRows_asRow]

/-- The same lane of the row of sums of squares. -/
theorem statSumSq_lane (X A : S50000x128.Idx → EReal) (W1 : S128x128.Idx → EReal) (b1 : S128.Idx → EReal) (W2 : S128x128.Idx → EReal)
    (b2 : S128.Idx → EReal) (k : Fin 2) (q : Fin 128) :
    statSumSq X A W1 (asRow b1) W2 (asRow b2) (ix2 (0 : Fin 1) (⟨128 * k.val + q.val, by have := k.isLt; have := q.isLt; omega⟩ : Fin 256))
      = accum (blockSum fun r => act X A W1 b1 W2 b2 r q * act X A W1 b1 W2 b2 r q) (5 * k.val + 4) := by
  have hk := k.isLt; have hq' := q.isLt
  have h1 : (128 * k.val + q.val) % 128 = q.val := by omega
  have h2 : (128 * k.val + q.val) / 128 = k.val := by omega
  have hq : (⟨(128 * k.val + q.val) % 128, Nat.mod_lt _ (by decide)⟩ : Fin 128) = q := Fin.ext h1
  show accum (blockSum fun r => actRows X A W1 (asRow b1) W2 (asRow b2) r ⟨(128 * k.val + q.val) % 128, Nat.mod_lt _ (by decide)⟩
        * actRows X A W1 (asRow b1) W2 (asRow b2) r ⟨(128 * k.val + q.val) % 128, Nat.mod_lt _ (by decide)⟩)
      (5 * ((128 * k.val + q.val) / 128) + 4) = _
  rw [hq, h2]
  simp only [actRows_asRow]

/-- What the normalising launch leaves, with the host's scale and shift rows formed from the statistics launch's rows of
    sums, is the specification's moment form of the result. -/
theorem applied_eq_resultMoments (X A : S50000x128.Idx → EReal) (W1 : S128x128.Idx → EReal) (b1 : S128.Idx → EReal)
    (W2 : S128x128.Idx → EReal) (b2 g b : S128.Idx → EReal) :
    applied X A W1 (asRow b1) W2 (asRow b2)
        (scaleRow (statSum X A W1 (asRow b1) W2 (asRow b2)) (statSumSq X A W1 (asRow b1) W2 (asRow b2)) (asRow g))
        (shiftRow (statSum X A W1 (asRow b1) W2 (asRow b2)) (statSumSq X A W1 (asRow b1) W2 (asRow b2)) (asRow g) (asRow b))
      = resultMoments X A W1 b1 W2 b2 g b := by
  funext i
  obtain ⟨r, q, rfl⟩ : ∃ (r : Fin 50000) (q : Fin 128), i = ix2 r q := ⟨i 0, i 1, eq_ix2 i⟩
  show actRows X A W1 (asRow b1) W2 (asRow b2) r q * scaleRow _ _ (asRow g) (ix2 (0 : Fin 1) q) + shiftRow _ _ (asRow g) (asRow b) (ix2 (0 : Fin 1) q)
    = normMoments (fun r' => act X A W1 b1 W2 b2 r' q) (g (ix1 q)) (b (ix1 q)) r
  rw [shiftRow_apply, scaleRow_apply, meanRow_apply, meanRow_apply]
  simp only [statSum_lane, statSumSq_lane, asRow_apply, actRows_asRow]
  rfl

variable (m : (ℓ : Loc nD τ sig) → Buf (Elt Ideal) ℓ) (ρ : Dev nD → PrngReg)

/-- THE KERNEL'S RESULT: when @main returns, the result array holds the moment form of the normalised activations of the
    argument arrays, the neighbours' sums being the reference's own term of the features and the edge list. -/
theorem kernel_value (c : Dev nD) :
    W4 m ρ c (Proc.devRef .tc main_v39)
      = resultMoments (m ((c : Thread nD τ).loc main_arg0))
          (Cert.ReferenceIdeal.Read.val_main_v13 (F := Ideal) (m ((c : Thread nD τ).loc main_arg0)) (m ((c : Thread nD τ).loc main_arg1)))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 8).trans ?_
  rw [apply_final (V3 m ρ) c, entry1_arg0, entry1_agg, entry1_arg2, entry1_b1, entry1_arg4, entry1_b2, entry1_scale, entry1_shift,
    exit0_sum, exit0_sumsq, exit0_gamma, exit0_beta, entry0_gamma, entry0_beta,
    stats_final6 (V1 m ρ) c, stats_final7 (V1 m ρ) c, entry0_arg0, entry0_agg, entry0_arg2, entry0_b1, entry0_arg4, entry0_b2]
  exact applied_eq_resultMoments _ _ _ _ _ _ _ _

end Cert.GinNorm.Kernel

end
-- ==== Proof.RefValue.lean ====
/-
  The reference program's result is the specification's `result`.

  The reference is read one operation at a time: the self term plus the neighbours' sum, the two dense layers with their
  rectifiers, the column means, the centred values, the column variances, and the final scale and shift. Each stage of the
  program, read at an index built from its coordinates, is the corresponding expression of Proof/Spec.lean; the neighbours'
  sum (a gather followed by a scatter-add) stays the program's own term throughout.
-/
import proofs.«139955_j87703232184760_2_alg».proof.Proof.Spec
import proofs.«139955_j87703232184760_2_alg».proof.Proof.Gen.ReferenceIdeal.Read

noncomputable section

namespace Cert.GinNorm.Ref

open Cert.ReferenceIdeal Cert.ReferenceIdeal.Read Idealize.ShloMosaic Idealize.ShloMosaic.ValueIdx

/-! ## Indices: the program's composed index maps at an index given by coordinates -/

/-- The left operand of a row-by-matrix product is read at the result's row and the summation index. -/
theorem lidx17 (r : Fin 50000) (c k : Fin 128) : lidx_main_v17 (ix2 r c) k = ix2 r k :=
  funext fun a => Fin.ext (by match a with | ⟨0, _⟩ => rfl | ⟨1, _⟩ => rfl)
/-- The right operand of a row-by-matrix product is read at the summation index and the result's column. -/
theorem ridx17 (r : Fin 50000) (c k : Fin 128) : ridx_main_v17 (ix2 r c) k = ix2 k c :=
  funext fun a => Fin.ext (by match a with | ⟨0, _⟩ => rfl | ⟨1, _⟩ => rfl)
/-- The second product's left operand, likewise. -/
theorem lidx22 (r : Fin 50000) (c k : Fin 128) : lidx_main_v22 (ix2 r c) k = ix2 r k :=
  funext fun a => Fin.ext (by match a with | ⟨0, _⟩ => rfl | ⟨1, _⟩ => rfl)
/-- The second product's right operand, likewise. -/
theorem ridx22 (r : Fin 50000) (c k : Fin 128) : ridx_main_v22 (ix2 r c) k = ix2 k c :=
  funext fun a => Fin.ext (by match a with | ⟨0, _⟩ => rfl | ⟨1, _⟩ => rfl)
/-- A row vector broadcast over the rows is read at the column. -/
theorem idx18 (r : Fin 50000) (c : Fin 128) : idx_main_v18 (idx_main_v19 (ix2 r c)) = ix1 c :=
  funext fun a => Fin.ext (by match a with | ⟨0, _⟩ => rfl)
/-- The second bias, likewise. -/
theorem idx23 (r : Fin 50000) (c : Fin 128) : idx_main_v23 (idx_main_v24 (ix2 r c)) = ix1 c :=
  funext fun a => Fin.ext (by match a with | ⟨0, _⟩ => rfl)

/-- A column reduction reads its operand at the summation index and the result's column. -/
theorem idx27 (c : Fin 128) (k : Fin 50000) : idx_main_v27 (ix1 c) k = ix2 k c :=
  funext fun a => Fin.ext (by match a with | ⟨0, _⟩ => rfl | ⟨1, _⟩ => rfl)
/-- The second column reduction, likewise. -/
theorem idx34 (c : Fin 128) (k : Fin 50000) : idx_main_v34 (ix1 c) k = ix2 k c :=
  funext fun a => Fin.ext (by match a with | ⟨0, _⟩ => rfl | ⟨1, _⟩ => rfl)
/-- A per-column statistic broadcast over the rows is read at the column: the mean, for the squared deviations. -/
theorem idx30 (r : Fin 50000) (c : Fin 128) : idx_main_v30 (idx_main_v31 (ix2 r c)) = ix1 c :=
  funext fun a => Fin.ext (by match a with | ⟨0, _⟩ => rfl)
/-- The mean again, for the values that are scaled. -/
theorem idx37 (r : Fin 50000) (c : Fin 128) : idx_main_v37 (idx_main_v38 (ix2 r c)) = ix1 c :=
  funext fun a => Fin.ext (by match a with | ⟨0, _⟩ => rfl)
/-- The reciprocal square root, likewise. -/
theorem idx43 (r : Fin 50000) (c : Fin 128) : idx_main_v43 (idx_main_v44 (ix2 r c)) = ix1 c :=
  funext fun a => Fin.ext (by match a with | ⟨0, _⟩ => rfl)
/-- The scale vector `γ`, likewise. -/
theorem idx46 (r : Fin 50000) (c : Fin 128) : idx_main_v46 (idx_main_v47 (ix2 r c)) = ix1 c :=
  funext fun a => Fin.ext (by match a with | ⟨0, _⟩ => rfl)
/-- The shift vector `β`, likewise. -/
theorem idx49 (r : Fin 50000) (c : Fin 128) : idx_main_v49 (idx_main_v50 (ix2 r c)) = ix1 c :=
  funext fun a => Fin.ext (by match a with | ⟨0, _⟩ => rfl)

/-! ## The network -/

/-- The first layer's input: the self term `1 · x` plus the neighbours' sum. -/
theorem v16_apply (x0 : (⟨S50000x128, .f32⟩ : BufTy).Contents (Elt Ideal)) (x1 : (⟨S2x600000, .i32⟩ : BufTy).Contents (Elt Ideal))
    (r : Fin 50000) (k : Fin 128) :
    val_main_v16 (F := Ideal) x0 x1 (ix2 r k) = one * x0 (ix2 r k) + val_main_v13 (F := Ideal) x0 x1 (ix2 r k) := by
  rw [val_main_v16_apply, val_main_v15_apply, val_main_v14_apply, val_main_cst_1_apply]
  rfl

/-- The first layer at row `r`, column `j`: the rectified `Σₖ h k · W1 k j + b1 j` of the row's input `h`. -/
theorem v21_apply (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal))
    (r : Fin 50000) (j : Fin 128) :
    val_main_v21 (F := Ideal) x0 x1 x2 x3 (ix2 r j)
      = layer (fun k j => x2 (ix2 k j)) (fun j => x3 (ix1 j))
          (fun k => one * x0 (ix2 r k) + val_main_v13 (F := Ideal) x0 x1 (ix2 r k)) j := by
  rw [val_main_v21_apply, val_main_v20_apply, val_main_v17_apply, val_main_v19_apply, val_main_v18_apply,
    val_main_call0_v0_apply, val_main_call0_cst_apply, idx18]
  simp only [lidx17, ridx17, v16_apply]
  rfl

/-- The network's output at row `r`, column `c`. -/
theorem v26_apply (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 50000) (c : Fin 128) :
    val_main_v26 (F := Ideal) x0 x1 x2 x3 x4 x5 (ix2 r c)
      = act x0 (val_main_v13 (F := Ideal) x0 x1) x2 x3 x4 x5 r c := by
  rw [val_main_v26_apply, val_main_v25_apply, val_main_v22_apply, val_main_v24_apply, val_main_v23_apply,
    val_main_call1_v0_apply, val_main_call1_cst_apply, idx23]
  simp only [lidx22, ridx22, v21_apply]
  rfl

/-! ## The normalisation -/

/-- The mean of column `c`: zero plus the column's sum, over the row count. -/
theorem v29_apply (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (c : Fin 128) :
    val_main_v29 (F := Ideal) x0 x1 x2 x3 x4 x5 (ix1 c) = meanR (fun r => act x0 (val_main_v13 (F := Ideal) x0 x1) x2 x3 x4 x5 r c) := by
  rw [val_main_v29_apply, val_main_v27_apply, val_main_v28_apply, val_main_cst_3_apply, val_main_cst_2_apply]
  simp only [idx27, v26_apply]
  rfl

/-- The centred value that is squared for the variance: the output minus its column's mean. -/
theorem v32_apply (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 50000) (c : Fin 128) :
    val_main_v32 (F := Ideal) x0 x1 x2 x3 x4 x5 (ix2 r c)
      = act x0 (val_main_v13 (F := Ideal) x0 x1) x2 x3 x4 x5 r c - meanR (fun r' => act x0 (val_main_v13 (F := Ideal) x0 x1) x2 x3 x4 x5 r' c) := by
  rw [val_main_v32_apply, val_main_v31_apply, val_main_v30_apply, idx30, v29_apply, v26_apply]
  rfl

/-- The centred value that is scaled: the same difference, formed a second time by the program. -/
theorem v39_apply (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 50000) (c : Fin 128) :
    val_main_v39 (F := Ideal) x0 x1 x2 x3 x4 x5 (ix2 r c)
      = act x0 (val_main_v13 (F := Ideal) x0 x1) x2 x3 x4 x5 r c - meanR (fun r' => act x0 (val_main_v13 (F := Ideal) x0 x1) x2 x3 x4 x5 r' c) := by
  rw [val_main_v39_apply, val_main_v38_apply, val_main_v37_apply, idx37, v29_apply, v26_apply]
  rfl

/-- The scale of column `c`: the reciprocal square root of the mean squared deviation plus `ε`. -/
theorem v42_apply (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (c : Fin 128) :
    val_main_v42 (F := Ideal) x0 x1 x2 x3 x4 x5 (ix1 c)
      = Ideal.rsqrt (Ideal.div (zero + ∑ r' : Fin 50000,
            (act x0 (val_main_v13 (F := Ideal) x0 x1) x2 x3 x4 x5 r' c - meanR (fun r => act x0 (val_main_v13 (F := Ideal) x0 x1) x2 x3 x4 x5 r c))
              * (act x0 (val_main_v13 (F := Ideal) x0 x1) x2 x3 x4 x5 r' c - meanR (fun r => act x0 (val_main_v13 (F := Ideal) x0 x1) x2 x3 x4 x5 r c))) cnt + eps) := by
  rw [val_main_v42_apply, val_main_v41_apply, val_main_v36_apply, val_main_v34_apply, val_main_v35_apply,
    val_main_v40_apply, val_main_cst_4_apply, val_main_cst_5_apply, val_main_cst_6_apply]
  simp only [idx34, val_main_v33_apply, v32_apply]
  rfl

/-- THE REFERENCE IS THE SPECIFICATION: its result, entry by entry, is the centred normalisation of the network's output
    column, the neighbours' sums being the program's own gather-and-scatter term. -/
theorem reference_eq (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) :
    Cert.ReferenceIdeal.Read.val_main_v51 (F := Ideal) x0 x1 x2 x3 x4 x5 x6 x7
      = Cert.GinNorm.result x0 (Cert.ReferenceIdeal.Read.val_main_v13 (F := Ideal) x0 x1) x2 x3 x4 x5 x6 x7 := by
  funext i
  obtain ⟨r, c, rfl⟩ : ∃ (r : Fin 50000) (c : Fin 128), i = ix2 r c := ⟨i 0, i 1, eq_ix2 i⟩
  rw [val_main_v51_apply, val_main_v48_apply, val_main_v45_apply, val_main_v50_apply, val_main_v49_apply, idx49,
    val_main_v47_apply, val_main_v46_apply, idx46, val_main_v44_apply, val_main_v43_apply, idx43, v42_apply, v39_apply]
  rfl

end Cert.GinNorm.Ref

end
-- ==== Proof.Consts.lean ====
/-
  The float literals of the two programs, each evaluated once: what extended real its bit pattern denotes.
  Unfolding the pattern reader happens only here; every other module reads the values from these theorems.
  Also the predicate "this extended real is a real number", which the finiteness statements are phrased with.
-/
import proofs.«139955_j87703232184760_2_alg».proof.Proof.Spec
import Idealize.ShloMosaic.PureOps.Ideal.Laws
import Idealize.ShloMosaic.Lib.IdealHost

noncomputable section

namespace Cert.GinNorm

open Idealize.ShloMosaic

/-- A value is a real: it is the image of a real number, so neither infinity. -/
def IsReal (x : EReal) : Prop := ∃ v : ℝ, x = (v : EReal)

/-- The pattern of `+0.0` denotes `0`. -/
theorem zero_eq : zero = 0 := by
  simp [zero, Ideal.ofBits, Ideal.ieee]

/-- The pattern `0x3F800000` (exponent field 127, empty fraction) denotes `2^23 · 2^(127-127-23) = 1`. -/
theorem one_eq : one = 1 := by
  simp [one, Ideal.ofBits, Ideal.ieee, -EReal.coe_mul]; norm_num

/-- The pattern `0x47435000` (exponent field 142, fraction `0x435000`) denotes
    `(2^23 + 4411392) · 2^(142-127-23) = 12800000 / 256 = 50000`. -/
theorem cnt_eq : cnt = ((50000 : ℝ) : EReal) := by
  simp [cnt, Ideal.ofBits, Ideal.ieee, -EReal.coe_mul]; norm_num

/-- The pattern `0x3727C5AC` (exponent field 110, fraction `0x27C5AC`) denotes
    `(2^23 + 2606508) · 2^(110-127-23) = 10995116 / 2^40`, the float nearest `1e-5`. -/
theorem eps_eq : eps = ((10995116 / 2 ^ 40 : ℝ) : EReal) := by
  simp [eps, Ideal.ofBits, Ideal.ieee, -EReal.coe_mul]; norm_num

/-- The variance's offset is a positive real. -/
theorem eps_pos : ∃ e : ℝ, 0 < e ∧ eps = (e : EReal) :=
  ⟨10995116 / 2 ^ 40, by positivity, eps_eq⟩

end Cert.GinNorm

end
-- ==== Proof.Sums.lean ====
/-
  Finite sums of reals inside the extended reals, and the kernel's column total as a plain sum.

  * The coercion ℝ → EReal commutes with finite sums, so a sum of reals is a real; with products, sums and maxima
    of reals being reals, every entry of the network's output row is a real.
  * The kernel's total of a column — zero plus the two cores' running sums, each over five blocks of 5000 rows —
    is the sum of the column over all 50000 rows: only the literal zero being `0` and the commutativity and
    associativity of addition are used, with the row index written `r = 5000 · t + p`.
-/
import proofs.«139955_j87703232184760_2_alg».proof.Proof.Consts

noncomputable section

namespace Cert.GinNorm

open Idealize.ShloMosaic

/-- The coercion of a finite sum of reals is the sum of the coercions. -/
theorem coe_sum {ι : Type*} (s : Finset ι) (v : ι → ℝ) :
    ((∑ i ∈ s, v i : ℝ) : EReal) = ∑ i ∈ s, (v i : EReal) := by
  classical
  refine Finset.induction_on s (by simp) ?_
  intro a s ha ih
  rw [Finset.sum_insert ha, Finset.sum_insert ha, EReal.coe_add, ih]

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The larger of two reals is a real (the coercion is monotone). -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is a real. -/
theorem IsReal.sum {ι : Type*} (s : Finset ι) (f : ι → EReal) (h : ∀ i, IsReal (f i)) : IsReal (∑ i ∈ s, f i) := by
  choose v hv using h
  exact ⟨∑ i ∈ s, v i, by rw [coe_sum]; exact Finset.sum_congr rfl (fun i _ => hv i)⟩

/-- The literal zero is a real. -/
theorem isReal_zero : IsReal zero := ⟨0, by rw [zero_eq, EReal.coe_zero]⟩

/-- The literal one is a real. -/
theorem isReal_one : IsReal one := ⟨1, by rw [one_eq, EReal.coe_one]⟩

/-- A dense layer with the rectifier maps a row of reals, under real weights and biases, to reals. -/
theorem layer_isReal (w : Fin 128 → Fin 128 → EReal) (b : Fin 128 → EReal) (h : Fin 128 → EReal)
    (hw : ∀ k j, IsReal (w k j)) (hb : ∀ j, IsReal (b j)) (hh : ∀ k, IsReal (h k)) (j : Fin 128) :
    IsReal (layer w b h j) := by
  unfold layer
  exact ((IsReal.sum _ _ (fun k => (hh k).mul (hw k j))).add (hb j)).max isReal_zero

/-- Every entry of a node's output row is a real when the features, the neighbours' sums, the weights and the
    biases are: the row is built from them by products, finite sums and maxima with zero. -/
theorem mlpRow_isReal (w1 : Fin 128 → Fin 128 → EReal) (b1 : Fin 128 → EReal) (w2 : Fin 128 → Fin 128 → EReal)
    (b2 : Fin 128 → EReal) (x a : Fin 128 → EReal)
    (hw1 : ∀ k j, IsReal (w1 k j)) (hb1 : ∀ j, IsReal (b1 j)) (hw2 : ∀ k j, IsReal (w2 k j)) (hb2 : ∀ j, IsReal (b2 j))
    (hx : ∀ k, IsReal (x k)) (ha : ∀ k, IsReal (a k)) (c : Fin 128) :
    IsReal (mlpRow w1 b1 w2 b2 x a c) := by
  unfold mlpRow
  exact layer_isReal w2 b2 _ hw2 hb2
    (fun k => layer_isReal w1 b1 _ hw1 hb1 (fun k' => (isReal_one.mul (hx k')).add (ha k')) k) c

/-- The sum of a column over all rows is the sum of its ten block sums: row `r` is `5000 · t + p` for exactly one
    block `t < 10` and one place `p < 5000`. -/
theorem sum_blocks (f : Fin 50000 → EReal) :
    ∑ r : Fin 50000, f r = ∑ t ∈ Finset.range 10, blockSum f t := by
  rw [← Fin.sum_univ_eq_sum_range (blockSum f) 10,
    ← Equiv.sum_comp (finProdFinEquiv : Fin 10 × Fin 5000 ≃ Fin 50000) f, Fintype.sum_prod_type]
  refine Finset.sum_congr rfl (fun t _ => ?_)
  rw [blockSum, dif_pos t.isLt]
  refine Finset.sum_congr rfl (fun p _ => ?_)
  congr 1
  ext
  simp [finProdFinEquiv, Nat.add_comm]

/-- The first core's running sum after its five points is the sum of blocks 0 to 4. -/
theorem accum_four (B : ℕ → EReal) : accum B 4 = B 0 + B 1 + B 2 + B 3 + B 4 := by
  simp [accum, zero_eq]

/-- The second core's running sum, restarted at point 5, is after point 9 the sum of blocks 5 to 9. -/
theorem accum_nine (B : ℕ → EReal) : accum B 9 = B 5 + B 6 + B 7 + B 8 + B 9 := by
  simp [accum, zero_eq]

/-- The kernel's total of a column is the sum of the column over all 50000 rows. -/
theorem total_eq_sum (f : Fin 50000 → EReal) : total f = ∑ r : Fin 50000, f r := by
  rw [total, Fin.sum_univ_two, sum_blocks]
  simp [accum_four, accum_nine, zero_eq, Finset.sum_range_succ, add_assoc]

end Cert.GinNorm

end
-- ==== Proof.NormLaw.lean ====
/-
  The law that joins the two arrangements of the normalisation.

  For a column of reals `y` over `n = 50000` rows write `μ = (Σ y) / n`. Then
  `(Σ y²) / n − μ² = (Σ (y − μ)²) / n`, which is not negative, so the kernel's maximum with zero leaves it
  alone; adding the positive offset `ε` gives a positive real whose reciprocal square root `ρ` is a real; and
  `y · (γ ρ) + (β − μ · (γ ρ)) = (y − μ) · ρ · γ + β` in the reals. The kernel's totals are plain sums
  (Proof/Sums.lean), so both arrangements compute this one real.
-/
import proofs.«139955_j87703232184760_2_alg».proof.Proof.Sums

noncomputable section

namespace Cert.GinNorm

open Idealize.ShloMosaic Idealize.ShloMosaic.ValueIdx

/-- The mean of a real column over its 50000 rows. -/
def mu (y : Fin 50000 → ℝ) : ℝ := (∑ r, y r) * (1 / 50000)

/-- The mean of the squared deviations from the mean. -/
def var (y : Fin 50000 → ℝ) : ℝ := (∑ r, (y r - mu y) * (y r - mu y)) * (1 / 50000)

/-- A mean of squares is not negative. -/
theorem var_nonneg (y : Fin 50000 → ℝ) : 0 ≤ var y :=
  mul_nonneg (Finset.sum_nonneg fun r _ => mul_self_nonneg _) (by norm_num)

/-- The mean of the squared deviations is the mean of the squares less the square of the mean:
    `Σ (y − μ)² = Σ y² − 2 μ Σ y + n μ²` and `Σ y = n μ`. -/
theorem var_eq_moments (y : Fin 50000 → ℝ) :
    var y = (∑ r, y r * y r) * (1 / 50000) - mu y * mu y := by
  have h : ∑ r, (y r - mu y) * (y r - mu y)
      = (∑ r, y r * y r) - 2 * mu y * (∑ r, y r) + 50000 * (mu y * mu y) := by
    calc ∑ r, (y r - mu y) * (y r - mu y)
        = ∑ r, (y r * y r - 2 * mu y * y r + mu y * mu y) := Finset.sum_congr rfl (fun r _ => by ring)
      _ = _ := by
        rw [Finset.sum_add_distrib, Finset.sum_sub_distrib, ← Finset.mul_sum, Finset.sum_const,
          Finset.card_univ, Fintype.card_fin, nsmul_eq_mul]
        norm_num
  have hS : ∑ r, y r = 50000 * mu y := by rw [mu]; ring
  rw [var, h, hS]; ring

/-- The kernel's mean of a real column is the real mean. -/
theorem meanK_coe (y : Fin 50000 → ℝ) : meanK (fun r => (y r : EReal)) = (mu y : EReal) := by
  rw [meanK, total_eq_sum, cnt_eq, Ideal.div_coe (by norm_num), ← coe_sum, ← EReal.coe_mul, mu]

/-- The reference's mean is the kernel's: the total is the plain sum, and the leading zero adds nothing. -/
theorem meanR_eq_meanK (f : Fin 50000 → EReal) : meanR f = meanK f := by
  rw [meanR, meanK, total_eq_sum, zero_eq, zero_add]

/-- The kernel's variance of a real column, after its maximum with zero, is the real variance. -/
theorem varK_coe (y : Fin 50000 → ℝ) :
    max (Ideal.div (total fun r => (y r : EReal) * (y r : EReal)) cnt
        - meanK (fun r => (y r : EReal)) * meanK (fun r => (y r : EReal))) zero = (var y : EReal) := by
  rw [meanK_coe, total_eq_sum, cnt_eq, Ideal.div_coe (by norm_num), zero_eq]
  simp only [← EReal.coe_mul]
  rw [← coe_sum, ← EReal.coe_mul, ← EReal.coe_sub, ← var_eq_moments]
  exact max_eq_left (by exact_mod_cast var_nonneg y)

/-- The reference's variance of a real column is the real variance. -/
theorem varR_coe (y : Fin 50000 → ℝ) :
    Ideal.div (zero + ∑ r' : Fin 50000, ((y r' : EReal) - meanR fun r => (y r : EReal))
        * ((y r' : EReal) - meanR fun r => (y r : EReal))) cnt = (var y : EReal) := by
  rw [meanR_eq_meanK, meanK_coe, zero_eq, zero_add, cnt_eq, Ideal.div_coe (by norm_num)]
  simp only [← EReal.coe_sub, ← EReal.coe_mul]
  rw [← coe_sum, ← EReal.coe_mul, var]

/-- The variance plus the offset is a positive real, so its reciprocal square root is a real. -/
theorem rsqrt_var_eps (y : Fin 50000 → ℝ) : ∃ ρ : ℝ, Ideal.rsqrt ((var y : EReal) + eps) = (ρ : EReal) := by
  obtain ⟨e, he, hE⟩ := eps_pos
  have hpos : 0 < var y + e := add_pos_of_nonneg_of_pos (var_nonneg y) he
  refine ⟨(Real.sqrt (var y + e))⁻¹, ?_⟩
  rw [hE, ← EReal.coe_add, Ideal.rsqrt_coe, if_neg (not_lt.mpr hpos.le), if_neg hpos.ne']

/-- The law on a column of reals with real scale and offset. -/
theorem normMoments_eq_normCentred_coe (y : Fin 50000 → ℝ) (γ β : ℝ) (r : Fin 50000) :
    normMoments (fun r => (y r : EReal)) γ β r = normCentred (fun r => (y r : EReal)) γ β r := by
  obtain ⟨ρ, hρ⟩ := rsqrt_var_eps y
  rw [normMoments, normCentred, scaleK, varK_coe, varR_coe, hρ, meanR_eq_meanK, meanK_coe]
  simp only [← EReal.coe_mul, ← EReal.coe_sub, ← EReal.coe_add]
  congr 1; ring

/-- THE LAW: on a column of reals, with a real scale `g` and a real offset `b`, the kernel's arrangement
    `y · s + (b − μ · s)`, `s = g · rsqrt(max(E[y²] − μ², 0) + ε)`, and the reference's
    `(y − μ) · rsqrt(E[(y − μ)²] + ε) · g + b` are the same value at every row. -/
theorem normMoments_eq_normCentred (f : Fin 50000 → EReal) (g b : EReal) (hf : ∀ r, IsReal (f r)) (hg : IsReal g)
    (hb : IsReal b) (r : Fin 50000) : normMoments f g b r = normCentred f g b r := by
  choose y hy using hf
  obtain ⟨γ, rfl⟩ := hg
  obtain ⟨β, rfl⟩ := hb
  obtain rfl : f = fun r => (y r : EReal) := funext hy
  exact normMoments_eq_normCentred_coe y γ β r

/-- Every activation is a real when every argument array holds reals. -/
theorem act_isReal (X A : (⟨2, ![50000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (hX : ∀ i, IsReal (X i)) (hA : ∀ i, IsReal (A i)) (hW1 : ∀ i, IsReal (W1 i)) (hb1 : ∀ i, IsReal (b1 i))
    (hW2 : ∀ i, IsReal (W2 i)) (hb2 : ∀ i, IsReal (b2 i)) (r : Fin 50000) (c : Fin 128) :
    IsReal (act X A W1 b1 W2 b2 r c) := by
  unfold act
  exact mlpRow_isReal _ _ _ _ _ _ (fun _ _ => hW1 _) (fun _ => hb1 _) (fun _ _ => hW2 _) (fun _ => hb2 _)
    (fun _ => hX _) (fun _ => hA _) c

/-- The law on whole arrays: with every argument array real, the kernel's arrangement of the result and the
    reference's agree at every entry. -/
theorem resultMoments_eq_result (X A : (⟨2, ![50000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal) (b2 g b : (⟨1, ![128]⟩ : Shape).Idx → EReal)
    (hX : ∀ i, IsReal (X i)) (hA : ∀ i, IsReal (A i)) (hW1 : ∀ i, IsReal (W1 i)) (hb1 : ∀ i, IsReal (b1 i))
    (hW2 : ∀ i, IsReal (W2 i)) (hb2 : ∀ i, IsReal (b2 i)) (hg : ∀ i, IsReal (g i)) (hb : ∀ i, IsReal (b i)) :
    resultMoments X A W1 b1 W2 b2 g b = result X A W1 b1 W2 b2 g b := by
  funext i
  exact normMoments_eq_normCentred _ _ _ (fun r => act_isReal X A W1 b1 W2 b2 hX hA hW1 hb1 hW2 hb2 r (i 1))
    (hg _) (hb _) (i 0)

end Cert.GinNorm

end
-- ==== Proof.Finite.lean ====
/-
  Every float the network reads is a real number.

  The precondition says of each float argument that `|x| < +∞` holds at every entry. Over the extended reals
  `|x| = max x (-x)` is `+∞` at either infinity, so the comparison singles out exactly the images of real numbers.
  The neighbours' sums are the literal zero plus finitely many entries of the feature array, hence reals too:
  the reals inside the extended reals are closed under `+`, `·` and finite sums.
-/
import proofs.«139955_j87703232184760_2_alg».proof.Proof.Spec
import proofs.«139955_j87703232184760_2_alg».proof.Proof.Consts
import proofs.«139955_j87703232184760_2_alg».proof.Defs
import proofs.«139955_j87703232184760_2_alg».proof.Proof.Gen.ReferenceIdeal.Read
import Idealize.ShloMosaic.Lib.ReduceAll

noncomputable section

namespace Cert.GinNorm.Finite

open Idealize.ShloMosaic

/-! ### The reals inside the extended reals are closed under the ring operations -/

theorem IsReal.coe (v : ℝ) : IsReal (v : EReal) := ⟨v, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem IsReal.sum {ι : Type} (s : Finset ι) (f : ι → EReal) (h : ∀ i ∈ s, IsReal (f i)) : IsReal (∑ i ∈ s, f i) :=
  Finset.sum_induction f IsReal (fun _ _ => IsReal.add) IsReal.zero h

/-! ### One comparison `|x| < +∞` -/

/-- The pattern `0x7F800000` (sign clear, exponent field all ones, empty fraction) denotes `+∞`. -/
theorem inf_eq : Ideal.ofBits .f32 0x7F800000#32 = ⊤ := by
  simp [Ideal.ofBits, Ideal.ieee]

/-- `|x| < +∞` says `x` is a real: at `-∞` and at `+∞` the larger of `x` and `-x` is `+∞`, which is not below itself. -/
theorem isReal_of_abs_lt (x : EReal) (h : Ideal.cmp .olt (max x (-x)) (Ideal.ofBits .f32 0x7F800000#32) = 1#1) : IsReal x := by
  rw [inf_eq] at h
  induction x using EReal.rec with
  | bot => simp [Ideal.cmp] at h
  | coe r => exact ⟨r, rfl⟩
  | top => simp [Ideal.cmp] at h

/-! ### From the precondition to the arrays -/

section Pre

open Cert.Pre_finite_inputs

/-- The shape with no axes has one index. -/
instance : Subsingleton S_.Idx := ⟨fun a b => funext fun d => d.elim0⟩

/-- One conjunct of the precondition, `all(|x| < +∞)`: a conjunction over all entries that came out true was true
    at each entry, and there it is the comparison of `isReal_of_abs_lt`. -/
theorem real_of_all {s : Shape} {axes : List (Fin s.rank)} (x : FVec Ideal s .f32)
    (bc : S_.BroadcastsInDim s (![] : Fin 0 → Fin s.rank)) (h : s.ReducesTo axes S_) (hu : 0 < S_.numel)
    (e : Host.reduce IntOp.andi (cmpf .olt (Host.absf x) (broadcastInDim s ![] bc (constant S_ .f32 0x7F800000#32)))
      (constantI S_ 1 1#1) h hu ValueIdx.ix0 = 1#1) (i : s.Idx) : IsReal (x i) :=
  isReal_of_abs_lt (x i) (Host.reduce_andi_all _ _ h hu _ e i)

variable [hF : Cert.Pre_finite_inputs.Facts]

/-- THE PRECONDITION DECODED: it is the conjunction of seven `all(|x| < +∞)`, one per float argument (the integer
    edge list is unconstrained), so every entry of every float argument is a real. -/
theorem real_of_pre (a0 : (⟨S50000x128, .f32⟩ : BufTy).Contents (Elt Ideal)) (a1 : (⟨S2x600000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 a6 a7 : (⟨S128, .f32⟩ : BufTy).Contents (Elt Ideal))
    (h : Cert.Pre_finite_inputs.fn (F := Ideal) a0 a1 a2 a3 a4 a5 a6 a7 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have e := congrFun h ValueIdx.ix0
  dsimp only [fn, fn_part1, andi] at e
  simp only [IntOp.andi_eq_one] at e
  obtain ⟨⟨⟨⟨⟨⟨e0, e2⟩, e3⟩, e4⟩, e5⟩, e6⟩, e7⟩ := e
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7⟩

end Pre

/-! ### The neighbours' sums -/

/-- An accumulating scatter of reals into reals is a real at every index: the operand's entry there plus a finite sum
    of updates, whichever updates land there. -/
theorem scatterAdd_isReal {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact IsReal.add (hx i) (IsReal.sum _ _ fun j _ => hu j)

section Agg

open Cert.ReferenceIdeal Cert.ReferenceIdeal.Gen Cert.ReferenceIdeal.Read

variable [hR : Cert.ReferenceIdeal.Facts]

/-- Each neighbours' sum is the literal zero plus finitely many entries of the feature array (one gathered row entry
    per edge into the node): a real when the features are. Which edges contribute is never looked at. -/
theorem agg_isReal (x0 : (⟨S50000x128, .f32⟩ : BufTy).Contents (Elt Ideal)) (x1 : (⟨S2x600000, .i32⟩ : BufTy).Contents (Elt Ideal))
    (hx : ∀ i, IsReal (x0 i)) (i : S50000x128.Idx) :
    IsReal (Cert.ReferenceIdeal.Read.val_main_v13 (F := Ideal) x0 x1 i) := by
  rw [val_main_v13, Host.scatterAdd, Ideal.hostScatterAdd_def]
  refine scatterAdd_isReal _ _ _ _ (fun i => ?_) (fun j => ?_) i
  · rw [val_main_v11_apply, val_main_cst_apply, Ideal.ofBits_def, Ideal.ofBits_zero_f32]
    exact IsReal.zero
  · rw [val_main_v10, Host.gather]
    exact hx _

end Agg

end Cert.GinNorm.Finite

end
-- ==== Proof.Algebraic.lean ====
/-
  The two idealized programs compute the same array.

  From memories that agree on the eight arguments, the idealized kernel ends with the moment form of the normalised
  activations in its result array (KernelRun, KernelValue) and the idealized reference with the centred form (its generated
  run, RefValue). Under the precondition every float argument is a real; then so are the neighbours' sums and the
  activations, and the two forms are equal (NormLaw: `E[y²] − μ² = E[(y − μ)²] ≥ 0` over the reals, so the kernel's floor at
  zero changes nothing, and the scale and shift rearrange by distributivity).
-/
import proofs.«139955_j87703232184760_2_alg».proof.Defs
import proofs.«139955_j87703232184760_2_alg».proof.Proof.KernelRun
import proofs.«139955_j87703232184760_2_alg».proof.Proof.KernelValue
import proofs.«139955_j87703232184760_2_alg».proof.Proof.RefValue
import proofs.«139955_j87703232184760_2_alg».proof.Proof.NormLaw
import proofs.«139955_j87703232184760_2_alg».proof.Proof.Finite
import proofs.«139955_j87703232184760_2_alg».proof.Proof.Gen.Pre_finite_inputs
import proofs.«139955_j87703232184760_2_alg».proof.Proof.Gen.ReferenceIdeal.Run

noncomputable section

namespace Cert.GinNorm

open Idealize.ShloMosaic Idealize.ShloMosaic.TcCoe Idealize.SL.Sem

/-- The reference's frame: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Equal results, element by element, from memories agreeing on the arguments. -/
theorem algebraic : Cert.algebraic_KernelIdeal_ReferenceIdeal := by
  intro m ρ m' ρ' hpre hagree
  refine ⟨fun c => resultMoments (m ((c.tc : Thread Cert.KernelIdeal.nD Cert.KernelIdeal.τ).loc Cert.KernelIdeal.main_arg0))
      (Cert.ReferenceIdeal.Read.val_main_v13 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel: every buffer named at the last stage of the fold, the result read off it
    exact (θ_run Cert.KernelIdeal.defs _ _).mono (fun r h c =>
      ⟨(h c _ (Cert.KernelIdeal.Gen.mem_uc Cert.KernelIdeal.main_v39 (by decide))).trans (Kernel.kernel_value m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c)⟩)
      (Kernel.run_all m ρ)
  · -- the reference: its generated run, read as the centred form, which the law turns into the moment form
    refine (θ_run Cert.ReferenceIdeal.defs _ _).mono (fun r h c => ⟨(h c).1.trans ?_, (h c).2⟩)
      (Cert.ReferenceIdeal.Value.run (F := Ideal) m' ρ')
    obtain ⟨h0, h2, h3, h4, h5, h6, h7⟩ := Finite.real_of_pre _ _ _ _ _ _ _ _ (hpre c)
    rw [Cert.ReferenceIdeal.Read.val_main_v51_eq, Ref.reference_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (resultMoments_eq_result _ _ _ _ _ _ _ _ h0 (Finite.agg_isReal _ _ h0) h2 h3 h4 h5 h6 h7).symm

end Cert.GinNorm

end
-- ==== Proof.lean ====
/- The certificate's five claims, assembled.

   The statement is about a two-layer network applied to every node's feature row plus the sum of its neighbours' rows,
   followed by a column-wise normalisation with the batch's own mean and variance. The kernel computes the statistics in
   a first launch (sums and sums of squares, accumulated block by block on two cores) and applies `y · scale + shift` in a
   second; the reference centres the activations and divides by the standard deviation directly. The three frames are the
   generated ones; the idealization rewrote nothing; the equality of the two results is Proof/Algebraic.lean. -/
import proofs.«139955_j87703232184760_2_alg».proof.Defs
import proofs.«139955_j87703232184760_2_alg».proof.Proof.Gen.Kernel
import proofs.«139955_j87703232184760_2_alg».proof.Proof.Gen.Kernel.Skeleton
import proofs.«139955_j87703232184760_2_alg».proof.Proof.Gen.Kernel.Launch
import proofs.«139955_j87703232184760_2_alg».proof.Proof.Gen.Kernel.Points
import proofs.«139955_j87703232184760_2_alg».proof.Proof.Gen.Kernel.Frame
import proofs.«139955_j87703232184760_2_alg».proof.Proof.Gen.KernelIdeal
import proofs.«139955_j87703232184760_2_alg».proof.Proof.Gen.KernelIdeal.Skeleton
import proofs.«139955_j87703232184760_2_alg».proof.Proof.Gen.KernelIdeal.Launch
import proofs.«139955_j87703232184760_2_alg».proof.Proof.Gen.KernelIdeal.Points
import proofs.«139955_j87703232184760_2_alg».proof.Proof.Gen.KernelIdeal.Frame
import proofs.«139955_j87703232184760_2_alg».proof.Proof.Gen.ReferenceIdeal
import proofs.«139955_j87703232184760_2_alg».proof.Proof.Gen.Pre_finite_inputs
import proofs.«139955_j87703232184760_2_alg».proof.Proof.Gen.ReferenceIdeal.Run
import proofs.«139955_j87703232184760_2_alg».proof.Proof.Gen.ReferenceIdeal.Read
import proofs.«139955_j87703232184760_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.GinNorm.frame_reference,
  trivial,
  Cert.GinNorm.algebraic⟩

end Cert.Proof

end
